-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S4000000x2 : Shape := ⟨2, ![4000000, 2]⟩
abbrev S2000000x1 : Shape := ⟨2, ![2000000, 1]⟩
abbrev S2x4000000 : Shape := ⟨2, ![2, 4000000]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S4000000x2 : S_.BroadcastsInDim S4000000x2 (![] : Fin 0 → Fin S4000000x2.rank)
  reducesTo_S4000000x2_S_d0_1 : S4000000x2.ReducesTo [0, 1] S_
  bcast_S_S2000000x1 : S_.BroadcastsInDim S2000000x1 (![] : Fin 0 → Fin S2000000x1.rank)
  reducesTo_S2000000x1_S_d0_1 : S2000000x1.ReducesTo [0, 1] S_

variable [Facts]

def fn_part1 {F : FTy → Type} [FloatOps F] (main_v13 : IVec S_ 1) (main_v16 : IVec S2000000x1 1) : IVec S_ 1 :=
  let main_c_5 : IVec S_ 1 := constantI S_ 1 1#1
  let main_v17 : IVec S_ 1 := (fun x v => Host.reduce IntOp.andi x v reducesTo_S2000000x1_S_d0_1 h_S_) main_v16 main_c_5
  let main_v18 : IVec S_ 1 := andi main_v13 main_v17
  main_v18

def fn {F : FTy → Type} [FloatOps F] (main_arg0 : FVec F S2000000x3 .f32) (main_arg1 : FVec F S2000000x3 .f32) (main_arg2 : FVec F S4000000x2 .f32) (main_arg3 : FVec F S2000000x1 .f32) (main_arg4 : IVec S2x4000000 32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S2000000x3 .f32 := Host.absf main_arg1
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  let main_v9 : FVec F S4000000x2 .f32 := Host.absf main_arg2
  let main_cst_2 : FVec F S_ .f32 := constant S_ .f32 0x7F800000#32
  let main_v10 : FVec F S4000000x2 .f32 := broadcastInDim S4000000x2 ![] bcast_S_S4000000x2 main_cst_2
  let main_v11 : IVec S4000000x2 1 := cmpf .olt main_v9 main_v10
  let main_c_3 : IVec S_ 1 := constantI S_ 1 1#1
  let main_v12 : IVec S_ 1 := (fun x v => Host.reduce IntOp.andi x v reducesTo_S4000000x2_S_d0_1 h_S_) main_v11 main_c_3
  let main_v13 : IVec S_ 1 := andi main_v8 main_v12
  let main_v14 : FVec F S2000000x1 .f32 := Host.absf main_arg3
  let main_cst_4 : FVec F S_ .f32 := constant S_ .f32 0x7F800000#32
  let main_v15 : FVec F S2000000x1 .f32 := broadcastInDim S2000000x1 ![] bcast_S_S2000000x1 main_cst_4
  let main_v16 : IVec S2000000x1 1 := cmpf .olt main_v14 main_v15
  fn_part1 (F := F) main_v13 main_v16
-- ==== Kernel.lean ====
abbrev S2000000x3 : Shape := ⟨2, ![2000000, 3]⟩
abbrev S4000000x2 : Shape := ⟨2, ![4000000, 2]⟩
abbrev S2000000x1 : Shape := ⟨2, ![2000000, 1]⟩
abbrev S2x4000000 : Shape := ⟨2, ![2, 4000000]⟩
abbrev S2000000 : Shape := ⟨1, ![2000000]⟩
abbrev S4000000x1 : Shape := ⟨2, ![4000000, 1]⟩
abbrev S4000000 : Shape := ⟨1, ![4000000]⟩
abbrev S1x4000000 : Shape := ⟨2, ![1, 4000000]⟩
abbrev S_ : Shape := ⟨0, ![]⟩
abbrev S31250x128 : Shape := ⟨2, ![31250, 128]⟩
abbrev S8192x128 : Shape := ⟨2, ![8192, 128]⟩
abbrev S15625x128 : Shape := ⟨2, ![15625, 128]⟩
abbrev S4000x128 : Shape := ⟨2, ![4000, 128]⟩

abbrev nBuf : Space → Nat
  | .hbm => 61
  | .vmem => 22
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S4000000x2, .f32⟩
  | .hbm, ⟨3, _⟩ => ⟨S2000000x1, .f32⟩
  | .hbm, ⟨4, _⟩ => ⟨S2x4000000, .i32⟩
  | .hbm, ⟨5, _⟩ => ⟨S2000000x1, .f32⟩
  | .hbm, ⟨6, _⟩ => ⟨S2000000, .f32⟩
  | .hbm, ⟨7, _⟩ => ⟨S2000000x1, .f32⟩
  | .hbm, ⟨8, _⟩ => ⟨S2000000, .f32⟩
  | .hbm, ⟨9, _⟩ => ⟨S4000000x1, .f32⟩
  | .hbm, ⟨10, _⟩ => ⟨S4000000, .f32⟩
  | .hbm, ⟨11, _⟩ => ⟨S2000000, .f32⟩
  | .hbm, ⟨12, _⟩ => ⟨S1x4000000, .i32⟩
  | .hbm, ⟨13, _⟩ => ⟨S4000000, .i32⟩
  | .hbm, ⟨14, _⟩ => ⟨S1x4000000, .i32⟩
  | .hbm, ⟨15, _⟩ => ⟨S4000000, .i32⟩
  | .hbm, ⟨16, _⟩ => ⟨S_, .i32⟩
  | .hbm, ⟨17, _⟩ => ⟨S4000000, .i32⟩
  | .hbm, ⟨18, _⟩ => ⟨S4000000, .i1⟩
  | .hbm, ⟨19, _⟩ => ⟨S_, .i32⟩
  | .hbm, ⟨20, _⟩ => ⟨S4000000, .i32⟩
  | .hbm, ⟨21, _⟩ => ⟨S4000000, .i32⟩
  | .hbm, ⟨22, _⟩ => ⟨S4000000, .i32⟩
  | .hbm, ⟨23, _⟩ => ⟨S4000000x1, .i32⟩
  | .hbm, ⟨24, _⟩ => ⟨S4000000, .f32⟩
  | .hbm, ⟨25, _⟩ => ⟨S_, .i32⟩
  | .hbm, ⟨26, _⟩ => ⟨S4000000, .i32⟩
  | .hbm, ⟨27, _⟩ => ⟨S4000000, .i1⟩
  | .hbm, ⟨28, _⟩ => ⟨S_, .i32⟩
  | .hbm, ⟨29, _⟩ => ⟨S4000000, .i32⟩
  | .hbm, ⟨30, _⟩ => ⟨S4000000, .i32⟩
  | .hbm, ⟨31, _⟩ => ⟨S4000000, .i32⟩
  | .hbm, ⟨32, _⟩ => ⟨S4000000x1, .i32⟩
  | .hbm, ⟨33, _⟩ => ⟨S4000000, .f32⟩
  | .hbm, ⟨34, _⟩ => ⟨S31250x128, .f32⟩
  | .hbm, ⟨35, _⟩ => ⟨S31250x128, .f32⟩
  | .hbm, ⟨36, _⟩ => ⟨S31250x128, .f32⟩
  | .hbm, ⟨37, _⟩ => ⟨S31250x128, .f32⟩
  | .hbm, ⟨38, _⟩ => ⟨S4000000, .f32⟩
  | .hbm, ⟨39, _⟩ => ⟨S_, .f32⟩
  | .hbm, ⟨40, _⟩ => ⟨S2000000, .f32⟩
  | .hbm, ⟨41, _⟩ => ⟨S4000000x1, .i32⟩
  | .hbm, ⟨42, _⟩ => ⟨S2000000, .f32⟩
  | .hbm, ⟨43, _⟩ => ⟨S_, .f32⟩
  | .hbm, ⟨44, _⟩ => ⟨S4000000, .f32⟩
  | .hbm, ⟨45, _⟩ => ⟨S_, .f32⟩
  | .hbm, ⟨46, _⟩ => ⟨S2000000, .f32⟩
  | .hbm, ⟨47, _⟩ => ⟨S4000000x1, .i32⟩
  | .hbm, ⟨48, _⟩ => ⟨S2000000, .f32⟩
  | .hbm, ⟨49, _⟩ => ⟨S_, .f32⟩
  | .hbm, ⟨50, _⟩ => ⟨S2000000, .f32⟩
  | .hbm, ⟨51, _⟩ => ⟨S4000000x1, .i32⟩
  | .hbm, ⟨52, _⟩ => ⟨S2000000, .f32⟩
  | .hbm, ⟨53, _⟩ => ⟨S15625x128, .f32⟩
  | .hbm, ⟨54, _⟩ => ⟨S15625x128, .f32⟩
  | .hbm, ⟨55, _⟩ => ⟨S15625x128, .f32⟩
  | .hbm, ⟨56, _⟩ => ⟨S15625x128, .f32⟩
  | .hbm, ⟨57, _⟩ => ⟨S15625x128, .f32⟩
  | .hbm, ⟨58, _⟩ => ⟨S15625x128, .f32⟩
  | .hbm, ⟨59, _⟩ => ⟨S15625x128, .f32⟩
  | .hbm, ⟨60, _⟩ => ⟨S2000000, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2000000x3_S2000000x1_0_0 : S2000000x3.Slices ![0, 0] S2000000x1
  shapeCasts_S2000000x1_S2000000 : S2000000x1.ShapeCasts S2000000
  slices_S4000000x2_S4000000x1_0_0 : S4000000x2.Slices ![0, 0] S4000000x1
  shapeCasts_S4000000x1_S4000000 : S4000000x1.ShapeCasts S4000000
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  shapeCasts_S4000000_S31250x128 : S4000000.ShapeCasts S31250x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S31250x128_S4000000 : S31250x128.ShapeCasts S4000000
  bcast_S_S2000000 : S_.BroadcastsInDim S2000000 (![] : Fin 0 → Fin S2000000.rank)
  shapeCasts_S2000000_S15625x128 : S2000000.ShapeCasts S15625x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S15625x128_S2000000 : S15625x128.ShapeCasts S2000000
  gather_S2000000_S4000000x1_S4000000_n_0_n_n_0_1_1_wf : GatherDims.WF S2000000 S4000000x1 S4000000 [] [0] [] [0] [] 1 ![1]
  scatter_S2000000_S4000000x1_S4000000_n_0_0_1_wf : ScatterDims.WF S2000000 S4000000x1 S4000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x128.size a < S31250x128.size a
  hwx0_0 : ∀ i : grid0.Coords, EltTy.bits .f32 = 32 ∨ (Rect.unit (s := S31250x128) (fun a => cc0_transform_0 i a * S8192x128.size a) (fun a => (Pipeline.Clip.of (cc0_transform_0 i a) (S8192x128.size a) (S31250x128.size a)).extent (S8192x128.size a)) fun a => Pipeline.Clip.inb (Pipeline.Clip.ok_of (hstart0_0 i a))).WholeWords (EltTy.packing .f32)
  hwxs0_0 : ∀ i : grid0.Coords, EltTy.bits .f32 = 32 ∨ (Rect.unit (s := S8192x128) (fun _ => 0) (fun a => (Pipeline.Clip.of (cc0_transform_0 i a) (S8192x128.size a) (S31250x128.size a)).extent (S8192x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x128.size a < S31250x128.size a
  hwx0_1 : ∀ i : grid0.Coords, EltTy.bits .f32 = 32 ∨ (Rect.unit (s := S31250x128) (fun a => cc0_transform_1 i a * S8192x128.size a) (fun a => (Pipeline.Clip.of (cc0_transform_1 i a) (S8192x128.size a) (S31250x128.size a)).extent (S8192x128.size a)) fun a => Pipeline.Clip.inb (Pipeline.Clip.ok_of (hstart0_1 i a))).WholeWords (EltTy.packing .f32)
  hwxs0_1 : ∀ i : grid0.Coords, EltTy.bits .f32 = 32 ∨ (Rect.unit (s := S8192x128) (fun _ => 0) (fun a => (Pipeline.Clip.of (cc0_transform_1 i a) (S8192x128.size a) (S31250x128.size a)).extent (S8192x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x128.size a < S31250x128.size a
  hwx0_2 : ∀ i : grid0.Coords, EltTy.bits .f32 = 32 ∨ (Rect.unit (s := S31250x128) (fun a => cc0_transform_2 i a * S8192x128.size a) (fun a => (Pipeline.Clip.of (cc0_transform_2 i a) (S8192x128.size a) (S31250x128.size a)).extent (S8192x128.size a)) fun a => Pipeline.Clip.inb (Pipeline.Clip.ok_of (hstart0_2 i a))).WholeWords (EltTy.packing .f32)
  hwxs0_2 : ∀ i : grid0.Coords, EltTy.bits .f32 = 32 ∨ (Rect.unit (s := S8192x128) (fun _ => 0) (fun a => (Pipeline.Clip.of (cc0_transform_2 i a) (S8192x128.size a) (S31250x128.size a)).extent (S8192x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S8192x128.size a < S31250x128.size a
  hwx0_3 : ∀ i : grid0.Coords, EltTy.bits .f32 = 32 ∨ (Rect.unit (s := S31250x128) (fun a => cc0_transform_3 i a * S8192x128.size a) (fun a => (Pipeline.Clip.of (cc0_transform_3 i a) (S8192x128.size a) (S31250x128.size a)).extent (S8192x128.size a)) fun a => Pipeline.Clip.inb (Pipeline.Clip.ok_of (hstart0_3 i a))).WholeWords (EltTy.packing .f32)
  hwxs0_3 : ∀ i : grid0.Coords, EltTy.bits .f32 = 32 ∨ (Rect.unit (s := S8192x128) (fun _ => 0) (fun a => (Pipeline.Clip.of (cc0_transform_3 i a) (S8192x128.size a) (S31250x128.size a)).extent (S8192x128.size a)) fun a => (Nat.zero_add _).trans_le (Pipeline.Clip.extent_le (Pipeline.Clip.ok_of (hstart0_3 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S4000x128.size a < S15625x128.size a
  hwx1_0 : ∀ i : grid1.Coords, EltTy.bits .f32 = 32 ∨ (Rect.unit (s := S15625x128) (fun a => cc1_transform_0 i a * S4000x128.size a) (fun a => (Pipeline.Clip.of (cc1_transform_0 i a) (S4000x128.size a) (S15625x128.size a)).extent (S4000x128.size a)) fun a => Pipeline.Clip.inb (Pipeline.Clip.ok_of (hstart1_0 i a))).WholeWords (EltTy.packing .f32)
  hwxs1_0 : ∀ i : grid1.Coords, EltTy.bits .f32 = 32 ∨ (Rect.unit (s := S4000x128) (fun _ => 0) (fun a => (Pipeline.Clip.of (cc1_transform_0 i a) (S4000x128.size a) (S15625x128.size a)).extent (S4000x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S4000x128.size a < S15625x128.size a
  hwx1_1 : ∀ i : grid1.Coords, EltTy.bits .f32 = 32 ∨ (Rect.unit (s := S15625x128) (fun a => cc1_transform_1 i a * S4000x128.size a) (fun a => (Pipeline.Clip.of (cc1_transform_1 i a) (S4000x128.size a) (S15625x128.size a)).extent (S4000x128.size a)) fun a => Pipeline.Clip.inb (Pipeline.Clip.ok_of (hstart1_1 i a))).WholeWords (EltTy.packing .f32)
  hwxs1_1 : ∀ i : grid1.Coords, EltTy.bits .f32 = 32 ∨ (Rect.unit (s := S4000x128) (fun _ => 0) (fun a => (Pipeline.Clip.of (cc1_transform_1 i a) (S4000x128.size a) (S15625x128.size a)).extent (S4000x128.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S4000x128.size a < S15625x128.size a
  hwx1_2 : ∀ i : grid1.Coords, EltTy.bits .f32 = 32 ∨ (Rect.unit (s := S15625x128) (fun a => cc1_transform_2 i a * S4000x128.size a) (fun a => (Pipeline.Clip.of (cc1_transform_2 i a) (S4000x128.size a) (S15625x128.size a)).extent (S4000x128.size a)) fun a => Pipeline.Clip.inb (Pipeline.Clip.ok_of (hstart1_2 i a))).WholeWords (EltTy.packing .f32)
  hwxs1_2 : ∀ i : grid1.Coords, EltTy.bits .f32 = 32 ∨ (Rect.unit (s := S4000x128) (fun _ => 0) (fun a => (Pipeline.Clip.of (cc1_transform_2 i a) (S4000x128.size a) (S15625x128.size a)).extent (S4000x128.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S4000x128.size a < S15625x128.size a
  hwx1_3 : ∀ i : grid1.Coords, EltTy.bits .f32 = 32 ∨ (Rect.unit (s := S15625x128) (fun a => cc1_transform_3 i a * S4000x128.size a) (fun a => (Pipeline.Clip.of (cc1_transform_3 i a) (S4000x128.size a) (S15625x128.size a)).extent (S4000x128.size a)) fun a => Pipeline.Clip.inb (Pipeline.Clip.ok_of (hstart1_3 i a))).WholeWords (EltTy.packing .f32)
  hwxs1_3 : ∀ i : grid1.Coords, EltTy.bits .f32 = 32 ∨ (Rect.unit (s := S4000x128) (fun _ => 0) (fun a => (Pipeline.Clip.of (cc1_transform_3 i a) (S4000x128.size a) (S15625x128.size a)).extent (S4000x128.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S4000x128.size a < S15625x128.size a
  hwx1_4 : ∀ i : grid1.Coords, EltTy.bits .f32 = 32 ∨ (Rect.unit (s := S15625x128) (fun a => cc1_transform_4 i a * S4000x128.size a) (fun a => (Pipeline.Clip.of (cc1_transform_4 i a) (S4000x128.size a) (S15625x128.size a)).extent (S4000x128.size a)) fun a => Pipeline.Clip.inb (Pipeline.Clip.ok_of (hstart1_4 i a))).WholeWords (EltTy.packing .f32)
  hwxs1_4 : ∀ i : grid1.Coords, EltTy.bits .f32 = 32 ∨ (Rect.unit (s := S4000x128) (fun _ => 0) (fun a => (Pipeline.Clip.of (cc1_transform_4 i a) (S4000x128.size a) (S15625x128.size a)).extent (S4000x128.size a)) fun a => (Nat.zero_add _).trans_le (Pipeline.Clip.extent_le (Pipeline.Clip.ok_of (hstart1_4 i a)))).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S4000x128.size a < S15625x128.size a
  hwx1_5 : ∀ i : grid1.Coords, EltTy.bits .f32 = 32 ∨ (Rect.unit (s := S15625x128) (fun a => cc1_transform_5 i a * S4000x128.size a) (fun a => (Pipeline.Clip.of (cc1_transform_5 i a) (S4000x128.size a) (S15625x128.size a)).extent (S4000x128.size a)) fun a => Pipeline.Clip.inb (Pipeline.Clip.ok_of (hstart1_5 i a))).WholeWords (EltTy.packing .f32)
  hwxs1_5 : ∀ i : grid1.Coords, EltTy.bits .f32 = 32 ∨ (Rect.unit (s := S4000x128) (fun _ => 0) (fun a => (Pipeline.Clip.of (cc1_transform_5 i a) (S4000x128.size a) (S15625x128.size a)).extent (S4000x128.size a)) fun a => (Nat.zero_add _).trans_le (Pipeline.Clip.extent_le (Pipeline.Clip.ok_of (hstart1_5 i a)))).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hstart1_6 : ∀ (i : grid1.Coords) a, cc1_transform_6 i a * S4000x128.size a < S15625x128.size a
  hwx1_6 : ∀ i : grid1.Coords, EltTy.bits .f32 = 32 ∨ (Rect.unit (s := S15625x128) (fun a => cc1_transform_6 i a * S4000x128.size a) (fun a => (Pipeline.Clip.of (cc1_transform_6 i a) (S4000x128.size a) (S15625x128.size a)).extent (S4000x128.size a)) fun a => Pipeline.Clip.inb (Pipeline.Clip.ok_of (hstart1_6 i a))).WholeWords (EltTy.packing .f32)
  hwxs1_6 : ∀ i : grid1.Coords, EltTy.bits .f32 = 32 ∨ (Rect.unit (s := S4000x128) (fun _ => 0) (fun a => (Pipeline.Clip.of (cc1_transform_6 i a) (S4000x128.size a) (S15625x128.size a)).extent (S4000x128.size a)) fun a => (Nat.zero_add _).trans_le (Pipeline.Clip.extent_le (Pipeline.Clip.ok_of (hstart1_6 i a)))).WholeWords (EltTy.packing .f32)

variable [Facts₀]

def gather_S2000000_S4000000x1_S4000000_n_0_n_n_0_1_1 : GatherDims S2000000 S4000000x1 S4000000 where
  offsetDims := []
  collapsedSliceDims := [0]
  operandBatchingDims := []
  startIndicesBatchingDims := []
  startIndexMap := [0]
  indexVectorDim := 1
  sliceSizes := ![1]
  wf := gather_S2000000_S4000000x1_S4000000_n_0_n_n_0_1_1_wf
def scatter_S2000000_S4000000x1_S4000000_n_0_0_1 : ScatterDims S2000000 S4000000x1 S4000000 where
  updateWindowDims := []
  insertedWindowDims := [0]
  scatterDimsToOperandDims := [0]
  indexVectorDim := 1
  wf := scatter_S2000000_S4000000x1_S4000000_n_0_0_1_wf

abbrev win0_0 : Pipeline.Window sig grid0 :=
  Pipeline.Window.ofSpecClip (Memref.whole main_v25) S8192x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v26) S8192x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v27) S8192x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v28) S8192x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpecClip (Memref.whole main_v40) S4000x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v41) S4000x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v42) S4000x128.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v43) S4000x128.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpecClip (Memref.whole main_v44) S4000x128.size cc1_transform_4 reads1_4 false false 2 stage1_4 sem1_4
    hrank1 hreads1_4 hstart1_4 nbuf1_4 (Memref.isWhole_whole _) hwx1_4 hwxs1_4 hstage1_4

abbrev win1_5 : Pipeline.Window sig grid1 :=
  Pipeline.Window.ofSpecClip (Memref.whole main_v45) S4000x128.size cc1_transform_5 reads1_5 false false 2 stage1_5 sem1_5
    hrank1 hreads1_5 hstart1_5 nbuf1_5 (Memref.isWhole_whole _) hwx1_5 hwxs1_5 hstage1_5

abbrev win1_6 : Pipeline.Window sig grid1 :=
  Pipeline.Window.ofSpecClip (Memref.whole main_v46) S4000x128.size cc1_transform_6 reads1_6 true false 2 stage1_6 sem1_6
    hrank1 hreads1_6 hstart1_6 nbuf1_6 (Memref.isWhole_whole _) hwx1_6 hwxs1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2000000x3 : Shape := ⟨2, ![2000000, 3]⟩
abbrev S4000000x2 : Shape := ⟨2, ![4000000, 2]⟩
abbrev S2000000x1 : Shape := ⟨2, ![2000000, 1]⟩
abbrev S2x4000000 : Shape := ⟨2, ![2, 4000000]⟩
abbrev S2000000 : Shape := ⟨1, ![2000000]⟩
abbrev S4000000x1 : Shape := ⟨2, ![4000000, 1]⟩
abbrev S4000000 : Shape := ⟨1, ![4000000]⟩
abbrev S1x4000000 : Shape := ⟨2, ![1, 4000000]⟩
abbrev S_ : Shape := ⟨0, ![]⟩

abbrev nBuf : Space → Nat
  | .hbm => 88
  | .vmem => 0
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S4000000x2, .f32⟩
  | .hbm, ⟨3, _⟩ => ⟨S2000000x1, .f32⟩
  | .hbm, ⟨4, _⟩ => ⟨S2x4000000, .i32⟩
  | .hbm, ⟨5, _⟩ => ⟨S2000000x1, .f32⟩
  | .hbm, ⟨6, _⟩ => ⟨S2000000, .f32⟩
  | .hbm, ⟨7, _⟩ => ⟨S2000000x1, .f32⟩
  | .hbm, ⟨8, _⟩ => ⟨S2000000, .f32⟩
  | .hbm, ⟨9, _⟩ => ⟨S4000000x1, .f32⟩
  | .hbm, ⟨10, _⟩ => ⟨S4000000, .f32⟩
  | .hbm, ⟨11, _⟩ => ⟨S1x4000000, .i32⟩
  | .hbm, ⟨12, _⟩ => ⟨S4000000, .i32⟩
  | .hbm, ⟨13, _⟩ => ⟨S1x4000000, .i32⟩
  | .hbm, ⟨14, _⟩ => ⟨S4000000, .i32⟩
  | .hbm, ⟨15, _⟩ => ⟨S2000000, .f32⟩
  | .hbm, ⟨16, _⟩ => ⟨S_, .f32⟩
  | .hbm, ⟨17, _⟩ => ⟨S2000000, .f32⟩
  | .hbm, ⟨18, _⟩ => ⟨S2000000, .f32⟩
  | .hbm, ⟨19, _⟩ => ⟨S_, .i32⟩
  | .hbm, ⟨20, _⟩ => ⟨S4000000, .i32⟩
  | .hbm, ⟨21, _⟩ => ⟨S4000000, .i1⟩
  | .hbm, ⟨22, _⟩ => ⟨S_, .i32⟩
  | .hbm, ⟨23, _⟩ => ⟨S4000000, .i32⟩
  | .hbm, ⟨24, _⟩ => ⟨S4000000, .i32⟩
  | .hbm, ⟨25, _⟩ => ⟨S4000000, .i32⟩
  | .hbm, ⟨26, _⟩ => ⟨S4000000x1, .i32⟩
  | .hbm, ⟨27, _⟩ => ⟨S4000000, .f32⟩
  | .hbm, ⟨28, _⟩ => ⟨S_, .i32⟩
  | .hbm, ⟨29, _⟩ => ⟨S4000000, .i32⟩
  | .hbm, ⟨30, _⟩ => ⟨S4000000, .i1⟩
  | .hbm, ⟨31, _⟩ => ⟨S_, .i32⟩
  | .hbm, ⟨32, _⟩ => ⟨S4000000, .i32⟩
  | .hbm, ⟨33, _⟩ => ⟨S4000000, .i32⟩
  | .hbm, ⟨34, _⟩ => ⟨S4000000, .i32⟩
  | .hbm, ⟨35, _⟩ => ⟨S4000000x1, .i32⟩
  | .hbm, ⟨36, _⟩ => ⟨S4000000, .f32⟩
  | .hbm, ⟨37, _⟩ => ⟨S4000000, .f32⟩
  | .hbm, ⟨38, _⟩ => ⟨S4000000, .f32⟩
  | .hbm, ⟨39, _⟩ => ⟨S_, .f32⟩
  | .hbm, ⟨40, _⟩ => ⟨S2000000, .f32⟩
  | .hbm, ⟨41, _⟩ => ⟨S4000000x1, .i32⟩
  | .hbm, ⟨42, _⟩ => ⟨S2000000, .f32⟩
  | .hbm, ⟨43, _⟩ => ⟨S_, .f32⟩
  | .hbm, ⟨44, _⟩ => ⟨S4000000, .f32⟩
  | .hbm, ⟨45, _⟩ => ⟨S_, .f32⟩
  | .hbm, ⟨46, _⟩ => ⟨S2000000, .f32⟩
  | .hbm, ⟨47, _⟩ => ⟨S4000000x1, .i32⟩
  | .hbm, ⟨48, _⟩ => ⟨S2000000, .f32⟩
  | .hbm, ⟨49, _⟩ => ⟨S_, .f32⟩
  | .hbm, ⟨50, _⟩ => ⟨S2000000, .f32⟩
  | .hbm, ⟨51, _⟩ => ⟨S2000000, .i1⟩
  | .hbm, ⟨52, _⟩ => ⟨S_, .f32⟩
  | .hbm, ⟨53, _⟩ => ⟨S2000000, .f32⟩
  | .hbm, ⟨54, _⟩ => ⟨S2000000, .f32⟩
  | .hbm, ⟨55, _⟩ => ⟨S2000000, .f32⟩
  | .hbm, ⟨56, _⟩ => ⟨S_, .f32⟩
  | .hbm, ⟨57, _⟩ => ⟨S_, .f32⟩
  | .hbm, ⟨58, _⟩ => ⟨S2000000, .f32⟩
  | .hbm, ⟨59, _⟩ => ⟨S2000000, .f32⟩
  | .hbm, ⟨60, _⟩ => ⟨S_, .i32⟩
  | .hbm, ⟨61, _⟩ => ⟨S4000000, .i32⟩
  | .hbm, ⟨62, _⟩ => ⟨S4000000, .i1⟩
  | .hbm, ⟨63, _⟩ => ⟨S_, .i32⟩
  | .hbm, ⟨64, _⟩ => ⟨S4000000, .i32⟩
  | .hbm, ⟨65, _⟩ => ⟨S4000000, .i32⟩
  | .hbm, ⟨66, _⟩ => ⟨S4000000, .i32⟩
  | .hbm, ⟨67, _⟩ => ⟨S4000000x1, .i32⟩
  | .hbm, ⟨68, _⟩ => ⟨S4000000, .f32⟩
  | .hbm, ⟨69, _⟩ => ⟨S_, .f32⟩
  | .hbm, ⟨70, _⟩ => ⟨S2000000, .f32⟩
  | .hbm, ⟨71, _⟩ => ⟨S4000000x1, .i32⟩
  | .hbm, ⟨72, _⟩ => ⟨S2000000, .f32⟩
  | .hbm, ⟨73, _⟩ => ⟨S_, .f32⟩
  | .hbm, ⟨74, _⟩ => ⟨S2000000, .f32⟩
  | .hbm, ⟨75, _⟩ => ⟨S2000000, .f32⟩
  | .hbm, ⟨76, _⟩ => ⟨S2000000, .f32⟩
  | .hbm, ⟨77, _⟩ => ⟨S_, .f32⟩
  | .hbm, ⟨78, _⟩ => ⟨S2000000, .f32⟩
  | .hbm, ⟨79, _⟩ => ⟨S2000000, .f32⟩
  | .hbm, ⟨80, _⟩ => ⟨S2000000, .f32⟩
  | .hbm, ⟨81, _⟩ => ⟨S2000000, .f32⟩
  | .hbm, ⟨82, _⟩ => ⟨S_, .f32⟩
  | .hbm, ⟨83, _⟩ => ⟨S2000000, .f32⟩
  | .hbm, ⟨84, _⟩ => ⟨S2000000, .f32⟩
  | .hbm, ⟨85, _⟩ => ⟨S2000000, .f32⟩
  | .hbm, ⟨86, _⟩ => ⟨S2000000, .f32⟩
  | .hbm, ⟨87, _⟩ => ⟨S2000000, .f32⟩
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_call0_v0 : Ref sig .tc := ⟨.hbm, 57, rfl⟩
abbrev main_call0_v1 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  slices_S2000000x3_S2000000x1_0_0 : S2000000x3.Slices ![0, 0] S2000000x1
  shapeCasts_S2000000x1_S2000000 : S2000000x1.ShapeCasts S2000000
  slices_S4000000x2_S4000000x1_0_0 : S4000000x2.Slices ![0, 0] S4000000x1
  shapeCasts_S4000000x1_S4000000 : S4000000x1.ShapeCasts S4000000
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S2000000 : S_.BroadcastsInDim S2000000 (![] : Fin 0 → Fin S2000000.rank)
  bcast_S_S4000000 : S_.BroadcastsInDim S4000000 (![] : Fin 0 → Fin S4000000.rank)
  bcast_S4000000_S4000000x1_0 : S4000000.BroadcastsInDim S4000000x1 (![0] : Fin 1 → Fin S4000000x1.rank)
  gather_S2000000_S4000000x1_S4000000_n_0_n_n_0_1_1_wf : GatherDims.WF S2000000 S4000000x1 S4000000 [] [0] [] [0] [] 1 ![1]
  scatter_S2000000_S4000000x1_S4000000_n_0_0_1_wf : ScatterDims.WF S2000000 S4000000x1 S4000000 [] [0] [0] 1

variable [Facts₀]

def gather_S2000000_S4000000x1_S4000000_n_0_n_n_0_1_1 : GatherDims S2000000 S4000000x1 S4000000 where
  offsetDims := []
  collapsedSliceDims := [0]
  operandBatchingDims := []
  startIndicesBatchingDims := []
  startIndexMap := [0]
  indexVectorDim := 1
  sliceSizes := ![1]
  wf := gather_S2000000_S4000000x1_S4000000_n_0_n_n_0_1_1_wf
def scatter_S2000000_S4000000x1_S4000000_n_0_0_1 : ScatterDims S2000000 S4000000x1 S4000000 where
  updateWindowDims := []
  insertedWindowDims := [0]
  scatterDimsToOperandDims := [0]
  indexVectorDim := 1
  wf := scatter_S2000000_S4000000x1_S4000000_n_0_0_1_wf

class Facts : Prop extends Facts₀ where

variable [Facts]
-- ==== Proof.PointwiseLoss.lean ====
/-
  The two scalar functions both programs apply entry by entry, over any float instance.

  * `edgeDiff1 us ud ea = (ud - us) / ea` — the difference of the node values at an edge's two ends,
    divided by the edge's spacing.
  * `nodeLoss1 u u1 sums cnt se msk` — at one node: the temporal difference `(u - u1) / dt`, plus the mean of the
    incoming edge differences (`sums / max cnt 1` where `cnt > 0`, else zero) times `u`, minus `mu` times the
    central second difference `(se - 2 u) / dx²`, all times the mask. The four literals are the f32 words of
    `0.01` (both `dt` and `mu`), `1`, `2` and `1e-6`, the same words on both sides.

  Every vector operation of the library is the scalar operation entry by entry, so an array computed by either program
  is one of these two functions of the operand arrays' entries.
-/
import Idealize.ShloMosaic.PureOps.Vector

noncomputable section

namespace Cert.PointwiseLoss

open Idealize.ShloMosaic

variable {F : FTy → Type} [FloatOps F]

/-- `(ud - us) / ea`. -/
def edgeDiff1 (us ud ea : F .f32) : F .f32 := FloatOps.divf (FloatOps.subf ud us) ea

/-- `((u - u1) / dt + (if cnt > 0 then sums / max cnt 1 else 0) · u - mu · ((se - 2 u) / dx²)) · msk`. -/
def nodeLoss1 (u u1 sums cnt se msk : F .f32) : F .f32 :=
  FloatOps.mulf
    (FloatOps.subf
      (FloatOps.addf
        (FloatOps.divf (FloatOps.subf u u1) (Scalar.ofBits .f32 0x3C23D70A#32))
        (FloatOps.mulf
          (Scalar.select (FloatOps.cmpf .ogt cnt (Scalar.ofBits .f32 0x00000000#32))
            (FloatOps.divf sums (FloatOps.maximumf cnt (Scalar.ofBits .f32 0x3F800000#32)))
            (Scalar.ofBits .f32 0x00000000#32))
          u))
      (FloatOps.mulf (Scalar.ofBits .f32 0x3C23D70A#32)
        (FloatOps.divf (FloatOps.subf se (FloatOps.mulf (Scalar.ofBits .f32 0x40000000#32) u)) (Scalar.ofBits .f32 0x358637BD#32))))
    msk

end Cert.PointwiseLoss

end
-- ==== Proof.KEdgeRegion.lean ====
/-
  The edge pass of the kernel's program as printed — its first pipelined region — at any float instance. The program's
  idealization has the same region, and the same argument proves the same statement of it.

  The region runs over four grid points; at point `t` it stages rows `8192·t … 8192·t + 8191` of three 31250×128
  arrays (the source-end values, the destination-end values, the spacings) and writes back the same rows of the
  result. The last block overhangs the arrays by 1518 rows: its fetch fills only the rows inside the array and the
  rest of the staging buffer holds words nothing names; its write-back writes only the rows inside the array.

  The body loads the three staged blocks whole and stores `(ud - us) / ea` entry by entry. So on the rows a transfer
  moves, the result's staging buffer holds `edgeDiff1` of the three array blocks, whatever the tail holds; that is the
  proof data `dat0` and its body obligation. The arrays are read at a parameter `V`, the buffers' contents when the
  region is entered.
-/
import proofs.«108122_j16939351015518_2_alg».proof.Proof.Gen.Kernel.Launch
import proofs.«108122_j16939351015518_2_alg».proof.Proof.Gen.Kernel.Skeleton
import proofs.«108122_j16939351015518_2_alg».proof.Proof.Gen.Kernel.Points
import proofs.«108122_j16939351015518_2_alg».proof.Proof.PointwiseLoss
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.EdgeRegion

open Cert.Kernel Cert.Kernel.Gen Cert.PointwiseLoss
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The rows of the source-end array that point `t`'s block holds inside the array. -/
def usBlk (c : Dev nD) (t : Fin cfg0.N) : (win0_0.xblock (grid0.coords t)).Idx → Elt F .f32 :=
  (win0_0.blk t).view.read (Elt F) (V c main_v25)
/-- The same rows of the destination-end array (the four windows' index maps and cuts agree: one block shape). -/
def udBlk (c : Dev nD) (t : Fin cfg0.N) : (win0_0.xblock (grid0.coords t)).Idx → Elt F .f32 :=
  (win0_1.blk t).view.read (Elt F) (V c main_v26)
/-- The same rows of the spacings. -/
def eaBlk (c : Dev nD) (t : Fin cfg0.N) : (win0_0.xblock (grid0.coords t)).Idx → Elt F .f32 :=
  (win0_2.blk t).view.read (Elt F) (V c main_v27)
/-- What the write-back at point `t` moves: the edge differences of those rows. -/
def outBlk (c : Dev nD) (t : Fin cfg0.N) : (win0_0.xblock (grid0.coords t)).Idx → Elt F .f32 :=
  fun j => edgeDiff1 (usBlk V c t j) (udBlk V c t j) (eaBlk V c t j)

/-- A filler for the staging rows past the array's end, which nothing reads. -/
def pad : S8192x128.Idx → Elt F .f32 := fun _ => Scalar.ofBits .f32 0#32

/-! ## The proof data -/

/-- The arrays as the region finds them; after the body each staging buffer holds, on the rows a transfer moves, its
    block (an input) or the edge differences (the result); the class's invariant; nothing owed; full shares. -/
def dat0 (c : Dev nD) : Dat τ (Elt F) Unit ℕ (UR sig nD τ) ℕ cfg0 c where
  A w := V c (Pipeline.arrRef spec0 w)
  after w t := match w with
    | ⟨0, _⟩ => win0_0.fill (grid0.coords t) pad (usBlk V c t)
    | ⟨1, _⟩ => win0_0.fill (grid0.coords t) pad (udBlk V c t)
    | ⟨2, _⟩ => win0_0.fill (grid0.coords t) pad (eaBlk V c t)
    | ⟨3, _⟩ => win0_0.fill (grid0.coords t) pad (outBlk V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = win0_0.fill (grid0.coords t) pad (usBlk V c t) := by dsimp only [dat0]
theorem after0_1 (c : Dev nD) (t : Fin cfg0.N) : (dat0 V c).after 1 t = win0_0.fill (grid0.coords t) pad (udBlk V c t) := by dsimp only [dat0]
theorem after0_2 (c : Dev nD) (t : Fin cfg0.N) : (dat0 V c).after 2 t = win0_0.fill (grid0.coords t) pad (eaBlk V c t) := by dsimp only [dat0]
theorem after0_3 (c : Dev nD) (t : Fin cfg0.N) : (dat0 V c).after 3 t = win0_0.fill (grid0.coords t) pad (outBlk V c t) := by dsimp only [dat0]

/-- The result's window fetches at no point. -/
theorem fetch0_3 : ∀ t : Fin cfg0.N, (cfg0.win 3).fetch t = false :=
  (by decide +kernel : ∀ t : Fin grid0.N, win0_3.fetch t = false)

/-- An input's buffer, just fetched, holds its block on the rows inside the array and `d` past them. -/
theorem before0_0 (c : Dev nD) (t : Fin cfg0.N) (d) :
    (dat0 V c).before (0 : Fin 4) t d = win0_0.fill (grid0.coords t) d (usBlk V c t) := by
  unfold Dat.before; rw [if_pos (fetch0_0 t)]; unfold Dat.fetched Dat.blockOf usBlk; rw [A_eq0]
theorem before0_1 (c : Dev nD) (t : Fin cfg0.N) (d) :
    (dat0 V c).before (1 : Fin 4) t d = win0_0.fill (grid0.coords t) d (udBlk V c t) := by
  unfold Dat.before; rw [if_pos (fetch0_1 t)]; unfold Dat.fetched Dat.blockOf udBlk; rw [A_eq0]; rfl
theorem before0_2 (c : Dev nD) (t : Fin cfg0.N) (d) :
    (dat0 V c).before (2 : Fin 4) t d = win0_0.fill (grid0.coords t) d (eaBlk V c t) := by
  unfold Dat.before; rw [if_pos (fetch0_2 t)]; unfold Dat.fetched Dat.blockOf eaBlk; rw [A_eq0]; rfl
/-- The result's buffer holds words nothing names: it is never fetched, and every point writes it back. -/
theorem before0_3 (c : Dev nD) (t : Fin cfg0.N) (d) : (dat0 V c).before (3 : Fin 4) t d = d := by
  unfold Dat.before
  rw [if_neg (by rw [fetch0_3 t]; exact Bool.false_ne_true)]
  by_cases h0 : t.val = 0
  · rw [if_pos h0]
  · rw [if_neg h0]; exact if_pos (flush0_3 _)

/-! ## The body -/

/-- What the one store leaves in the result's staging buffer, from the three input buffers' contents. -/
def stored0 (x0 x1 x2 : Vec F S8192x128 .f32) : Vec F S8192x128 .f32 :=
  View.canon [⟨Rect.unit (s := S8192x128) ![0, 0] S8192x128.size inb_S8192x128_S8192x128_0_0,
    k0_pay1 (View.ld x1 (Rect.unit (s := S8192x128) ![0, 0] S8192x128.size inb_S8192x128_S8192x128_0_0))
      (View.ld x0 (Rect.unit (s := S8192x128) ![0, 0] S8192x128.size inb_S8192x128_S8192x128_0_0))
      (View.ld x2 (Rect.unit (s := S8192x128) ![0, 0] S8192x128.size inb_S8192x128_S8192x128_0_0))⟩]

theorem zeros2 : (![0, 0] : Fin 2 → Nat) = fun _ => 0 := funext fun a => by fin_cases a <;> rfl

/-- The store is whole and its payload is the edge difference entry by entry. -/
theorem stored0_eq (x0 x1 x2 : Vec F S8192x128 .f32) :
    stored0 x0 x1 x2 = fun j => edgeDiff1 (x0 j) (x1 j) (x2 j) := by
  unfold stored0
  rw [View.canon_unit_zero zeros2]
  simp only [View.ld_unit_zero (S := S8192x128) zeros2]
  funext j
  unfold k0_pay1
  simp only [shapeCast_self]
  rfl

set_option maxHeartbeats 1000000 in
/-- The kernel body on whole staging memrefs: the three inputs' contents are read and kept, the result's buffer ends
    holding `stored0` of them. -/
theorem sound_kernel0 (c : Dev nD) (E : Set ℕ) (i : grid0.Coords)
    (arg1 : Memref sig .tc .vmem S8192x128 .f32) (harg1 : arg1.IsWhole) (arg2 : Memref sig .tc .vmem S8192x128 .f32) (harg2 : arg2.IsWhole)
    (arg3 : Memref sig .tc .vmem S8192x128 .f32) (harg3 : arg3.IsWhole) (arg4 : Memref sig .tc .vmem S8192x128 .f32) (harg4 : arg4.IsWhole)
    (x0 x1 x2 : Vec F S8192x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (stored0 x0 x1 x2)) -∗ K ⟨⟩))
      ⊢ wp frame (wpE (defs₀ (F := F)) Variants.none c none) E (cc0__edge_diff_kernel i arg1 harg1 arg2 harg2 arg3 harg3 arg4 harg4) K := by
  simp only [cc0__edge_diff_kernel_eq_skeleton]; unfold cc0__edge_diff_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (fun y => ⟨_, List.mem_singleton_self _, View.mem_set_unit_zero zeros2 inb_S8192x128_S8192x128_0_0 y⟩)

/-! ## The body obligation -/

/-- On the rows a transfer moves, what the store leaves is the edge differences of the three array blocks, whatever
    the input buffers hold past the array's end. -/
theorem cut_stored0 (c : Dev nD) (t : Fin cfg0.N) (d0 d1 d2 : S8192x128.Idx → Elt F .f32) :
    win0_0.cut (grid0.coords t) (stored0 (win0_0.fill (grid0.coords t) d0 (usBlk V c t))
        (win0_0.fill (grid0.coords t) d1 (udBlk V c t)) (win0_0.fill (grid0.coords t) d2 (eaBlk V c t)))
      = outBlk V c t := by
  rw [stored0_eq]
  funext j
  show edgeDiff1 (win0_0.fill (grid0.coords t) d0 (usBlk V c t) (win0_0.xinj (grid0.coords t) j))
      (win0_0.fill (grid0.coords t) d1 (udBlk V c t) (win0_0.xinj (grid0.coords t) j))
      (win0_0.fill (grid0.coords t) d2 (eaBlk V c t) (win0_0.xinj (grid0.coords t) j)) = _
  rw [win0_0.fill_xinj, win0_0.fill_xinj, win0_0.fill_xinj]
  rfl

/-- The library's body obligation at every point: each input buffer arrives holding its block filled out past the
    array's end with words nothing names and leaves unchanged; the result's buffer leaves holding, on the rows its
    write-back moves, the edge differences — all any of the four windows' obligations asks. -/
theorem body_obligation0 (c : Dev nD) :
    BodyObligationLoose (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  rw [before0_0 V c t d0, before0_1 V c t d1, before0_2 V c t d2, before0_3 V c t d3]
  iapply (sound_kernel0 (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_0.fill (grid0.coords t) d0 (usBlk V c t)) (win0_0.fill (grid0.coords t) d1 (udBlk V c t))
    (win0_0.fill (grid0.coords t) d2 (eaBlk V c t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) ((dat0 V c).after 0 t)))
    rw [after0_0 V c t, win0_0.cut_fill]; try iexact H0
  isplitl [H1]
  · iexists d1
    change _ ⊢ owns (c : Thread nD τ) (stage0_1 (cfg0.slots t 1)) fullShare
      (win0_0.fill (grid0.coords t) d1 (win0_0.cut (grid0.coords t) ((dat0 V c).after 1 t)))
    rw [after0_1 V c t, win0_0.cut_fill]; try iexact H1
  isplitl [H2]
  · iexists d2
    change _ ⊢ owns (c : Thread nD τ) (stage0_2 (cfg0.slots t 2)) fullShare
      (win0_0.fill (grid0.coords t) d2 (win0_0.cut (grid0.coords t) ((dat0 V c).after 2 t)))
    rw [after0_2 V c t, win0_0.cut_fill]; try iexact H2
  · iexists stored0 (win0_0.fill (grid0.coords t) d0 (usBlk V c t)) (win0_0.fill (grid0.coords t) d1 (udBlk V c t))
      (win0_0.fill (grid0.coords t) d2 (eaBlk V c t))
    change _ ⊢ owns (c : Thread nD τ) (stage0_3 (cfg0.slots t 3)) fullShare
      (win0_0.fill (grid0.coords t) (stored0 (win0_0.fill (grid0.coords t) d0 (usBlk V c t)) (win0_0.fill (grid0.coords t) d1 (udBlk V c t))
        (win0_0.fill (grid0.coords t) d2 (eaBlk V c t))) (win0_0.cut (grid0.coords t) ((dat0 V c).after 3 t)))
    rw [after0_3 V c t, win0_0.cut_fill, ← cut_stored0 V c t d0 d1 d2, win0_0.fill_cut]; try iexact H3

end Cert.Kernel.EdgeRegion

end
-- ==== Proof.KFold.lean ====
/-
  The buffers' contents at the boundaries of the kernel's program as printed, up to the node pass's entry, as a fold from the launch
  memory: the first host stretch applied (`W1`); the edge pass's arrays at what its write-backs compute and every other
  buffer as entered (`W2`); the second host stretch applied (`W3`).
-/
import proofs.«108122_j16939351015518_2_alg».proof.Proof.KEdgeRegion
import proofs.«108122_j16939351015518_2_alg».proof.Proof.Gen.Kernel.Regions

set_option maxRecDepth 16384

noncomputable section

namespace Cert.Kernel.Run

open Cert.Kernel Cert.Kernel.Gen Cert.Kernel.EdgeRegion
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-! ## The buffers' contents at each boundary -/

/-- Core `c`'s buffers at launch. -/
abbrev W0 : Dev nD → Valuation τ sig (Elt F) := fun c b => m (c, b)
/-- After the first host stretch (the edge pass's entry). -/
abbrev W1 : Dev nD → Valuation τ sig (Elt F) := fun c => StableHlo.after hostOps0 (W0 m c)
/-- The same read at the TensorCore's references. -/
abbrev R1 : (c : Dev nD) → (b : Ref sig .tc) → Buf (Elt F) ((c : Thread nD τ).loc b) := fun c b => W1 m c b
/-- At the edge pass's exit: its arrays at what the pipeline leaves, every other buffer as entered. -/
def W2 (c : Dev nD) : Valuation τ sig (Elt F) :=
  Pipeline.withArrays spec0 c (W1 m c) fun w => (dat0 (R1 m) c).arrAt w cfg0.N
theorem W2_arr (c : Dev nD) (w : Fin cfg0.W) :
    W2 m c (Proc.devRef .tc (Pipeline.arrRef spec0 w)) = (dat0 (R1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev R2 : (c : Dev nD) → (b : Ref sig .tc) → Buf (Elt F) ((c : Thread nD τ).loc b) := fun c b => W2 m c b
theorem hF0 (c : Dev nD) (w : Fin cfg0.W) : (dat0 (R1 m) c).arrAt w cfg0.N = R2 m c (Pipeline.arrRef spec0 w) :=
  (W2_arr m c w).symm
theorem hrest0 (c : Dev nD) : ∀ b, b ∉ Finset.univ.image (Pipeline.arrRef spec0) → R2 m c b = R1 m c b :=
  fun b hb => W2_of_ne m c b fun w e => hb (Finset.mem_image.mpr ⟨w, Finset.mem_univ _, e⟩)

/-- After the second host stretch (the node pass's entry). -/
abbrev W3 : Dev nD → Valuation τ sig (Elt F) := fun c => StableHlo.after hostOps1 (W2 m c)
abbrev R3 : (c : Dev nD) → (b : Ref sig .tc) → Buf (Elt F) ((c : Thread nD τ).loc b) := fun c b => W3 m c b

end Cert.Kernel.Run

end
-- ==== Proof.KNodeRegion.lean ====
/-
  The node pass of the kernel's program as printed — its second pipelined region — at any float instance. The program's
  idealization has the same region, and the same argument proves the same statement of it.

  The region runs over four grid points; at point `t` it stages rows `4000·t … 4000·t + 3999` of six 15625×128
  arrays (the current node values, the previous node values, the sums of incoming edge differences, the incoming-edge
  counts, the sums of edge-end values, the mask) and writes back the same rows of the result. The last block overhangs
  the arrays by 375 rows: its fetch fills only the rows inside the array and the rest of the staging buffer holds words
  nothing names; its write-back writes only the rows inside the array.

  The body loads the six staged blocks whole and stores the per-node loss
  `((u - u1) / dt + (if cnt > 0 then sums / max cnt 1 else 0) · u - mu · ((se - 2 u) / dx²)) · msk` entry by entry. So
  on the rows a transfer moves, the result's staging buffer holds `nodeLoss1` of the six array blocks, whatever the
  tail holds; that is the proof data `dat1` and its body obligation. The arrays are read at a parameter `V`, the
  buffers' contents when the region is entered.
-/
import proofs.«108122_j16939351015518_2_alg».proof.Proof.Gen.Kernel.Launch
import proofs.«108122_j16939351015518_2_alg».proof.Proof.Gen.Kernel.Skeleton
import proofs.«108122_j16939351015518_2_alg».proof.Proof.Gen.Kernel.Points
import proofs.«108122_j16939351015518_2_alg».proof.Proof.PointwiseLoss
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.NodeRegion

open Cert.Kernel Cert.Kernel.Gen Cert.PointwiseLoss
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The rows of the array of current node values that point `t`'s block holds inside the array. -/
def uBlk (c : Dev nD) (t : Fin cfg1.N) : (win1_0.xblock (grid1.coords t)).Idx → Elt F .f32 :=
  (win1_0.blk t).view.read (Elt F) (V c main_v40)
/-- The same rows of the previous node values (the seven windows' index maps and cuts agree: one block shape). -/
def u1Blk (c : Dev nD) (t : Fin cfg1.N) : (win1_0.xblock (grid1.coords t)).Idx → Elt F .f32 :=
  (win1_1.blk t).view.read (Elt F) (V c main_v41)
/-- The same rows of the sums of incoming edge differences. -/
def sumsBlk (c : Dev nD) (t : Fin cfg1.N) : (win1_0.xblock (grid1.coords t)).Idx → Elt F .f32 :=
  (win1_2.blk t).view.read (Elt F) (V c main_v42)
/-- The same rows of the incoming-edge counts. -/
def cntBlk (c : Dev nD) (t : Fin cfg1.N) : (win1_0.xblock (grid1.coords t)).Idx → Elt F .f32 :=
  (win1_3.blk t).view.read (Elt F) (V c main_v43)
/-- The same rows of the sums of the edge-end values. -/
def seBlk (c : Dev nD) (t : Fin cfg1.N) : (win1_0.xblock (grid1.coords t)).Idx → Elt F .f32 :=
  (win1_4.blk t).view.read (Elt F) (V c main_v44)
/-- The same rows of the mask. -/
def mskBlk (c : Dev nD) (t : Fin cfg1.N) : (win1_0.xblock (grid1.coords t)).Idx → Elt F .f32 :=
  (win1_5.blk t).view.read (Elt F) (V c main_v45)
/-- What the write-back at point `t` moves: the per-node loss of those rows. -/
def outBlk (c : Dev nD) (t : Fin cfg1.N) : (win1_0.xblock (grid1.coords t)).Idx → Elt F .f32 :=
  fun j => nodeLoss1 (uBlk V c t j) (u1Blk V c t j) (sumsBlk V c t j) (cntBlk V c t j) (seBlk V c t j) (mskBlk V c t j)

/-- A filler for the staging rows past the array's end, which nothing reads. -/
def pad : S4000x128.Idx → Elt F .f32 := fun _ => Scalar.ofBits .f32 0#32

/-! ## The proof data -/

/-- The arrays as the region finds them; after the body each staging buffer holds, on the rows a transfer moves, its
    block (an input) or the per-node loss (the result); the class's invariant; nothing owed; full shares. -/
def dat1 (c : Dev nD) : Dat τ (Elt F) Unit ℕ (UR sig nD τ) ℕ cfg1 c where
  A w := V c (Pipeline.arrRef spec1 w)
  after w t := match w with
    | ⟨0, _⟩ => win1_0.fill (grid1.coords t) pad (uBlk V c t)
    | ⟨1, _⟩ => win1_0.fill (grid1.coords t) pad (u1Blk V c t)
    | ⟨2, _⟩ => win1_0.fill (grid1.coords t) pad (sumsBlk V c t)
    | ⟨3, _⟩ => win1_0.fill (grid1.coords t) pad (cntBlk V c t)
    | ⟨4, _⟩ => win1_0.fill (grid1.coords t) pad (seBlk V c t)
    | ⟨5, _⟩ => win1_0.fill (grid1.coords t) pad (mskBlk V c t)
    | ⟨6, _⟩ => win1_0.fill (grid1.coords t) pad (outBlk V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = win1_0.fill (grid1.coords t) pad (uBlk V c t) := by dsimp only [dat1]
theorem after1_1 (c : Dev nD) (t : Fin cfg1.N) : (dat1 V c).after 1 t = win1_0.fill (grid1.coords t) pad (u1Blk V c t) := by dsimp only [dat1]
theorem after1_2 (c : Dev nD) (t : Fin cfg1.N) : (dat1 V c).after 2 t = win1_0.fill (grid1.coords t) pad (sumsBlk V c t) := by dsimp only [dat1]
theorem after1_3 (c : Dev nD) (t : Fin cfg1.N) : (dat1 V c).after 3 t = win1_0.fill (grid1.coords t) pad (cntBlk V c t) := by dsimp only [dat1]
theorem after1_4 (c : Dev nD) (t : Fin cfg1.N) : (dat1 V c).after 4 t = win1_0.fill (grid1.coords t) pad (seBlk V c t) := by dsimp only [dat1]
theorem after1_5 (c : Dev nD) (t : Fin cfg1.N) : (dat1 V c).after 5 t = win1_0.fill (grid1.coords t) pad (mskBlk V c t) := by dsimp only [dat1]
theorem after1_6 (c : Dev nD) (t : Fin cfg1.N) : (dat1 V c).after 6 t = win1_0.fill (grid1.coords t) pad (outBlk V c t) := by dsimp only [dat1]

/-- The result's window fetches at no point. -/
theorem fetch1_6 : ∀ t : Fin cfg1.N, (cfg1.win 6).fetch t = false :=
  (by decide +kernel : ∀ t : Fin grid1.N, win1_6.fetch t = false)

/-- An input's buffer, just fetched, holds its block on the rows inside the array and `d` past them. -/
theorem before1_0 (c : Dev nD) (t : Fin cfg1.N) (d) :
    (dat1 V c).before (0 : Fin 7) t d = win1_0.fill (grid1.coords t) d (uBlk V c t) := by
  unfold Dat.before; rw [if_pos (fetch1_0 t)]; unfold Dat.fetched Dat.blockOf uBlk; rw [A_eq1]
theorem before1_1 (c : Dev nD) (t : Fin cfg1.N) (d) :
    (dat1 V c).before (1 : Fin 7) t d = win1_0.fill (grid1.coords t) d (u1Blk V c t) := by
  unfold Dat.before; rw [if_pos (fetch1_1 t)]; unfold Dat.fetched Dat.blockOf u1Blk; rw [A_eq1]; rfl
theorem before1_2 (c : Dev nD) (t : Fin cfg1.N) (d) :
    (dat1 V c).before (2 : Fin 7) t d = win1_0.fill (grid1.coords t) d (sumsBlk V c t) := by
  unfold Dat.before; rw [if_pos (fetch1_2 t)]; unfold Dat.fetched Dat.blockOf sumsBlk; rw [A_eq1]; rfl
theorem before1_3 (c : Dev nD) (t : Fin cfg1.N) (d) :
    (dat1 V c).before (3 : Fin 7) t d = win1_0.fill (grid1.coords t) d (cntBlk V c t) := by
  unfold Dat.before; rw [if_pos (fetch1_3 t)]; unfold Dat.fetched Dat.blockOf cntBlk; rw [A_eq1]; rfl
theorem before1_4 (c : Dev nD) (t : Fin cfg1.N) (d) :
    (dat1 V c).before (4 : Fin 7) t d = win1_0.fill (grid1.coords t) d (seBlk V c t) := by
  unfold Dat.before; rw [if_pos (fetch1_4 t)]; unfold Dat.fetched Dat.blockOf seBlk; rw [A_eq1]; rfl
theorem before1_5 (c : Dev nD) (t : Fin cfg1.N) (d) :
    (dat1 V c).before (5 : Fin 7) t d = win1_0.fill (grid1.coords t) d (mskBlk V c t) := by
  unfold Dat.before; rw [if_pos (fetch1_5 t)]; unfold Dat.fetched Dat.blockOf mskBlk; rw [A_eq1]; rfl
/-- The result's buffer holds words nothing names: it is never fetched, and every point writes it back. -/
theorem before1_6 (c : Dev nD) (t : Fin cfg1.N) (d) : (dat1 V c).before (6 : Fin 7) t d = d := by
  unfold Dat.before
  rw [if_neg (by rw [fetch1_6 t]; exact Bool.false_ne_true)]
  by_cases h0 : t.val = 0
  · rw [if_pos h0]
  · rw [if_neg h0]; exact if_pos (flush1_6 _)

/-! ## The body -/

/-- What the one store leaves in the result's staging buffer, from the six input buffers' contents. -/
def stored1 (x0 x1 x2 x3 x4 x5 : Vec F S4000x128 .f32) : Vec F S4000x128 .f32 :=
  View.canon [⟨Rect.unit (s := S4000x128) ![0, 0] S4000x128.size inb_S4000x128_S4000x128_0_0,
    k1_pay1 (View.ld x0 (Rect.unit (s := S4000x128) ![0, 0] S4000x128.size inb_S4000x128_S4000x128_0_0))
      (View.ld x1 (Rect.unit (s := S4000x128) ![0, 0] S4000x128.size inb_S4000x128_S4000x128_0_0))
      (View.ld x2 (Rect.unit (s := S4000x128) ![0, 0] S4000x128.size inb_S4000x128_S4000x128_0_0))
      (View.ld x3 (Rect.unit (s := S4000x128) ![0, 0] S4000x128.size inb_S4000x128_S4000x128_0_0))
      (View.ld x4 (Rect.unit (s := S4000x128) ![0, 0] S4000x128.size inb_S4000x128_S4000x128_0_0))
      (View.ld x5 (Rect.unit (s := S4000x128) ![0, 0] S4000x128.size inb_S4000x128_S4000x128_0_0))⟩]

theorem zeros2 : (![0, 0] : Fin 2 → Nat) = fun _ => 0 := funext fun a => by fin_cases a <;> rfl

/-- The store is whole and its payload is the per-node loss entry by entry. -/
theorem stored1_eq (x0 x1 x2 x3 x4 x5 : Vec F S4000x128 .f32) :
    stored1 x0 x1 x2 x3 x4 x5 = fun j => nodeLoss1 (x0 j) (x1 j) (x2 j) (x3 j) (x4 j) (x5 j) := by
  unfold stored1
  rw [View.canon_unit_zero zeros2]
  simp only [View.ld_unit_zero (S := S4000x128) zeros2]
  funext j
  unfold k1_pay1
  simp only [shapeCast_self]
  rfl

set_option maxHeartbeats 1000000 in
/-- The kernel body on whole staging memrefs: the six inputs' contents are read and kept, the result's buffer ends
    holding `stored1` of them. -/
theorem sound_kernel1 (c : Dev nD) (E : Set ℕ) (i : grid1.Coords)
    (arg1 : Memref sig .tc .vmem S4000x128 .f32) (harg1 : arg1.IsWhole)
    (arg2 : Memref sig .tc .vmem S4000x128 .f32) (harg2 : arg2.IsWhole)
    (arg3 : Memref sig .tc .vmem S4000x128 .f32) (harg3 : arg3.IsWhole)
    (arg4 : Memref sig .tc .vmem S4000x128 .f32) (harg4 : arg4.IsWhole)
    (arg5 : Memref sig .tc .vmem S4000x128 .f32) (harg5 : arg5.IsWhole)
    (arg6 : Memref sig .tc .vmem S4000x128 .f32) (harg6 : arg6.IsWhole)
    (arg7 : Memref sig .tc .vmem S4000x128 .f32) (harg7 : arg7.IsWhole)
    (x0 x1 x2 x3 x4 x5 : Vec F S4000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (stored1 x0 x1 x2 x3 x4 x5)) -∗ K ⟨⟩))
      ⊢ wp frame (wpE (defs₀ (F := F)) Variants.none c none) E (cc1__node_combine_kernel i arg1 harg1 arg2 harg2 arg3 harg3 arg4 harg4 arg5 harg5 arg6 harg6 arg7 harg7) K := by
  simp only [cc1__node_combine_kernel_eq_skeleton]; unfold cc1__node_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (fun y => ⟨_, List.mem_singleton_self _, View.mem_set_unit_zero zeros2 inb_S4000x128_S4000x128_0_0 y⟩)

/-! ## The body obligation -/

/-- On the rows a transfer moves, what the store leaves is the per-node loss of the six array blocks, whatever the
    input buffers hold past the array's end. -/
theorem cut_stored1 (c : Dev nD) (t : Fin cfg1.N) (d0 d1 d2 d3 d4 d5 : S4000x128.Idx → Elt F .f32) :
    win1_0.cut (grid1.coords t) (stored1 (win1_0.fill (grid1.coords t) d0 (uBlk V c t))
        (win1_0.fill (grid1.coords t) d1 (u1Blk V c t))
        (win1_0.fill (grid1.coords t) d2 (sumsBlk V c t))
        (win1_0.fill (grid1.coords t) d3 (cntBlk V c t))
        (win1_0.fill (grid1.coords t) d4 (seBlk V c t))
        (win1_0.fill (grid1.coords t) d5 (mskBlk V c t)))
      = outBlk V c t := by
  rw [stored1_eq]
  funext j
  show nodeLoss1 (win1_0.fill (grid1.coords t) d0 (uBlk V c t) (win1_0.xinj (grid1.coords t) j))
      (win1_0.fill (grid1.coords t) d1 (u1Blk V c t) (win1_0.xinj (grid1.coords t) j))
      (win1_0.fill (grid1.coords t) d2 (sumsBlk V c t) (win1_0.xinj (grid1.coords t) j))
      (win1_0.fill (grid1.coords t) d3 (cntBlk V c t) (win1_0.xinj (grid1.coords t) j))
      (win1_0.fill (grid1.coords t) d4 (seBlk V c t) (win1_0.xinj (grid1.coords t) j))
      (win1_0.fill (grid1.coords t) d5 (mskBlk V c t) (win1_0.xinj (grid1.coords t) j)) = _
  rw [win1_0.fill_xinj, win1_0.fill_xinj, win1_0.fill_xinj, win1_0.fill_xinj, win1_0.fill_xinj, win1_0.fill_xinj]
  rfl

/-- The library's body obligation at every point: each input buffer arrives holding its block filled out past the
    array's end with words nothing names and leaves unchanged; the result's buffer leaves holding, on the rows its
    write-back moves, the per-node loss — all any of the seven windows' obligations asks. -/
theorem body_obligation1 (c : Dev nD) :
    BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before1_0 V c t d0, before1_1 V c t d1, before1_2 V c t d2, before1_3 V c t d3, before1_4 V c t d4, before1_5 V c t d5, before1_6 V c t d6]
  iapply (sound_kernel1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_0.fill (grid1.coords t) d0 (uBlk V c t))
    (win1_0.fill (grid1.coords t) d1 (u1Blk V c t))
    (win1_0.fill (grid1.coords t) d2 (sumsBlk V c t))
    (win1_0.fill (grid1.coords t) d3 (cntBlk V c t))
    (win1_0.fill (grid1.coords t) d4 (seBlk V c t))
    (win1_0.fill (grid1.coords t) d5 (mskBlk V c t)) _)
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  iintro ⟨H0, H1, H2, H3, H4, H5, H6⟩
  isplitl [HΦ]; · iexact HΦ
  isplitl [Ho]; · iexact Ho
  isplitl [H0]
  · iexists d0
    change _ ⊢ owns (c : Thread nD τ) (stage1_0 (cfg1.slots t 0)) fullShare
      (win1_0.fill (grid1.coords t) d0 (win1_0.cut (grid1.coords t) ((dat1 V c).after 0 t)))
    rw [after1_0 V c t, win1_0.cut_fill]; try iexact H0
  isplitl [H1]
  · iexists d1
    change _ ⊢ owns (c : Thread nD τ) (stage1_1 (cfg1.slots t 1)) fullShare
      (win1_0.fill (grid1.coords t) d1 (win1_0.cut (grid1.coords t) ((dat1 V c).after 1 t)))
    rw [after1_1 V c t, win1_0.cut_fill]; try iexact H1
  isplitl [H2]
  · iexists d2
    change _ ⊢ owns (c : Thread nD τ) (stage1_2 (cfg1.slots t 2)) fullShare
      (win1_0.fill (grid1.coords t) d2 (win1_0.cut (grid1.coords t) ((dat1 V c).after 2 t)))
    rw [after1_2 V c t, win1_0.cut_fill]; try iexact H2
  isplitl [H3]
  · iexists d3
    change _ ⊢ owns (c : Thread nD τ) (stage1_3 (cfg1.slots t 3)) fullShare
      (win1_0.fill (grid1.coords t) d3 (win1_0.cut (grid1.coords t) ((dat1 V c).after 3 t)))
    rw [after1_3 V c t, win1_0.cut_fill]; try iexact H3
  isplitl [H4]
  · iexists d4
    change _ ⊢ owns (c : Thread nD τ) (stage1_4 (cfg1.slots t 4)) fullShare
      (win1_0.fill (grid1.coords t) d4 (win1_0.cut (grid1.coords t) ((dat1 V c).after 4 t)))
    rw [after1_4 V c t, win1_0.cut_fill]; try iexact H4
  isplitl [H5]
  · iexists d5
    change _ ⊢ owns (c : Thread nD τ) (stage1_5 (cfg1.slots t 5)) fullShare
      (win1_0.fill (grid1.coords t) d5 (win1_0.cut (grid1.coords t) ((dat1 V c).after 5 t)))
    rw [after1_5 V c t, win1_0.cut_fill]; try iexact H5
  · iexists stored1 (win1_0.fill (grid1.coords t) d0 (uBlk V c t))
      (win1_0.fill (grid1.coords t) d1 (u1Blk V c t))
      (win1_0.fill (grid1.coords t) d2 (sumsBlk V c t))
      (win1_0.fill (grid1.coords t) d3 (cntBlk V c t))
      (win1_0.fill (grid1.coords t) d4 (seBlk V c t))
      (win1_0.fill (grid1.coords t) d5 (mskBlk V c t))
    change _ ⊢ owns (c : Thread nD τ) (stage1_6 (cfg1.slots t 6)) fullShare
      (win1_0.fill (grid1.coords t) (stored1 (win1_0.fill (grid1.coords t) d0 (uBlk V c t))
        (win1_0.fill (grid1.coords t) d1 (u1Blk V c t))
        (win1_0.fill (grid1.coords t) d2 (sumsBlk V c t))
        (win1_0.fill (grid1.coords t) d3 (cntBlk V c t))
        (win1_0.fill (grid1.coords t) d4 (seBlk V c t))
        (win1_0.fill (grid1.coords t) d5 (mskBlk V c t))) (win1_0.cut (grid1.coords t) ((dat1 V c).after 6 t)))
    rw [after1_6 V c t, win1_0.cut_fill, ← cut_stored1 V c t d0 d1 d2 d3 d4 d5, win1_0.fill_cut]; try iexact H6

end Cert.Kernel.NodeRegion

end
-- ==== Proof.KRun.lean ====
/-
  The run of the kernel's program as printed, at any float instance: host operations, the edge pass, host operations, the node pass,
  a last reshape — five segments in order, each entered from what the one before left.

  The buffers' contents at each boundary are a fold from the launch memory: a stretch of host operations applies them
  (`StableHlo.after`); a pipelined region leaves its arrays at what its write-backs compute (the proof data's
  `arrAt … N`) and every other buffer as it found it. The run ends with every unscoped buffer at the last boundary's
  contents `W5`; an argument array is written by no segment, so it is read back through the fold to its launch
  contents.
-/
import proofs.«108122_j16939351015518_2_alg».proof.Proof.KFold
import proofs.«108122_j16939351015518_2_alg».proof.Proof.KNodeRegion
import proofs.«108122_j16939351015518_2_alg».proof.Proof.Gen.Kernel.Regions

set_option maxRecDepth 16384

noncomputable section

namespace Cert.Kernel.Run

open Cert.Kernel Cert.Kernel.Gen Cert.Kernel.EdgeRegion Cert.Kernel.NodeRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the last boundaries -/

/-- At the node pass's exit. -/
def W4 (c : Dev nD) : Valuation τ sig (Elt F) :=
  Pipeline.withArrays spec1 c (W3 m c) fun w => (dat1 (R3 m) c).arrAt w cfg1.N
theorem W4_arr (c : Dev nD) (w : Fin cfg1.W) :
    W4 m c (Proc.devRef .tc (Pipeline.arrRef spec1 w)) = (dat1 (R3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev R4 : (c : Dev nD) → (b : Ref sig .tc) → Buf (Elt F) ((c : Thread nD τ).loc b) := fun c b => W4 m c b
theorem hF1 (c : Dev nD) (w : Fin cfg1.W) : (dat1 (R3 m) c).arrAt w cfg1.N = R4 m c (Pipeline.arrRef spec1 w) :=
  (W4_arr m c w).symm
theorem hrest1 (c : Dev nD) : ∀ b, b ∉ Finset.univ.image (Pipeline.arrRef spec1) → R4 m c b = R3 m c b :=
  fun b hb => W4_of_ne m c b fun w e => hb (Finset.mem_image.mpr ⟨w, Finset.mem_univ _, e⟩)
/-- After the last host stretch: the end. -/
abbrev W5 : Dev nD → Valuation τ sig (Elt F) := fun c => StableHlo.after hostOps2 (W4 m c)

/-! ## An argument array ends as launched -/

/-- A buffer no segment writes is read back through the fold to its launch contents: no host operation writes it
    (it is none of the stretches' results) and it is no array of either region's result window — as an input window's
    array it is left as entered. -/
theorem W5_kept (c : Dev nD) (r : Ref sig .tc) (h0 : r ∉ hostOps0_W) (h1 : r ∉ hostOps1_W) (h2 : r ∉ hostOps2_W)
    (hr0 : ∀ w, Pipeline.arrRef spec0 w ≠ r) (hr1 : ∀ w, Pipeline.arrRef spec1 w ≠ r) :
    W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_of_ne m c r hr1
    _ = W2 m c (Proc.devRef .tc r) := StableHlo.after_of_writes_sub hostOps1 _ hostOps1_writes h1
    _ = W1 m c (Proc.devRef .tc r) := W2_of_ne m c r hr0
    _ = W0 m c (Proc.devRef .tc r) := StableHlo.after_of_writes_sub hostOps0 _ hostOps0_writes h0
    _ = m ((c : Thread nD τ).loc r) := rfl

theorem W5_main_arg0 (c : Dev nD) : W5 m c (Proc.devRef .tc main_arg0) = m ((c : Thread nD τ).loc main_arg0) :=
  W5_kept m c main_arg0 (by decide) (by decide) (by decide) (by decide) (by decide)
theorem W5_main_arg1 (c : Dev nD) : W5 m c (Proc.devRef .tc main_arg1) = m ((c : Thread nD τ).loc main_arg1) :=
  W5_kept m c main_arg1 (by decide) (by decide) (by decide) (by decide) (by decide)
theorem W5_main_arg2 (c : Dev nD) : W5 m c (Proc.devRef .tc main_arg2) = m ((c : Thread nD τ).loc main_arg2) :=
  W5_kept m c main_arg2 (by decide) (by decide) (by decide) (by decide) (by decide)
theorem W5_main_arg3 (c : Dev nD) : W5 m c (Proc.devRef .tc main_arg3) = m ((c : Thread nD τ).loc main_arg3) :=
  W5_kept m c main_arg3 (by decide) (by decide) (by decide) (by decide) (by decide)
theorem W5_main_arg4 (c : Dev nD) : W5 m c (Proc.devRef .tc main_arg4) = m ((c : Thread nD τ).loc main_arg4) :=
  W5_kept m c main_arg4 (by decide) (by decide) (by decide) (by decide) (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev Ride (c : Dev nD) : sProp 𝕄 := iprop((∃ r, prngReg c r) ∗ ∃ W, owes (c : Thread nD τ) (0 : CellTallies nD τ sig Unit) W)
/-- A host stretch as a segment from the contents `W`, `Ride` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W5`, the generator register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The edge pass over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (R1 m) c
  hwaits := Pipeline.hwaits_of_owed_zero _ _ _ _ L lv 0 fun _ _ => rfl
  pre c := iprop(StableHlo.held (c : Thread nD τ) (Pipeline.ucRefs τ sig) (W1 m c) ∗ Ride c)
  post c := iprop(StableHlo.held (c : Thread nD τ) (Pipeline.ucRefs τ sig) (W2 m c) ∗ Ride c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node pass over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (R3 m) c
  hwaits := Pipeline.hwaits_of_owed_zero _ _ _ _ L lv 1 fun _ _ => rfl
  pre c := iprop(StableHlo.held (c : Thread nD τ) (Pipeline.ucRefs τ sig) (W3 m c) ∗ Ride c)
  post c := iprop(StableHlo.held (c : Thread nD τ) (Pipeline.ucRefs τ sig) (W4 m c) ∗ Ride c)
  X c := iprop(∃ r, prngReg c r)
  Y c := iprop(∃ r, prngReg c r)
  Z c := Pipeline.unscopedRest (Ix := Unit) (Name := ℕ) (U := UR sig nD τ) (Lvl := ℕ) spec1 c (R3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R3 m c) (R4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main IS the run of the segments. -/
theorem main_run (c : Dev nD) : main (F := F) c = Pipeline.Seg.run (segs m) := (main_chain c).trans (by chain_rfl)

set_option backward.isDefEq.respectTransparency.types false in
/-- At the compiled mesh, from any memory with zero counters, every weakly fair execution of @main on the TensorCores
    terminates, nothing faulting, and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (StableHlo.after hostOps2 (W4 m c)) ∗ Ride c) : sProp 𝕄)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.Kernel.Run

end
-- ==== Proof.KIEdgeRegion.lean ====
/-
  The edge pass of the kernel's program — its first pipelined region — at any float instance.

  The region runs over four grid points; at point `t` it stages rows `8192·t … 8192·t + 8191` of three 31250×128
  arrays (the source-end values, the destination-end values, the spacings) and writes back the same rows of the
  result. The last block overhangs the arrays by 1518 rows: its fetch fills only the rows inside the array and the
  rest of the staging buffer holds words nothing names; its write-back writes only the rows inside the array.

  The body loads the three staged blocks whole and stores `(ud - us) / ea` entry by entry. So on the rows a transfer
  moves, the result's staging buffer holds `edgeDiff1` of the three array blocks, whatever the tail holds; that is the
  proof data `dat0` and its body obligation. The arrays are read at a parameter `V`, the buffers' contents when the
  region is entered.
-/
import proofs.«108122_j16939351015518_2_alg».proof.Proof.Gen.KernelIdeal.Launch
import proofs.«108122_j16939351015518_2_alg».proof.Proof.Gen.KernelIdeal.Skeleton
import proofs.«108122_j16939351015518_2_alg».proof.Proof.Gen.KernelIdeal.Points
import proofs.«108122_j16939351015518_2_alg».proof.Proof.PointwiseLoss
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.EdgeRegion

open Cert.KernelIdeal Cert.KernelIdeal.Gen Cert.PointwiseLoss
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The rows of the source-end array that point `t`'s block holds inside the array. -/
def usBlk (c : Dev nD) (t : Fin cfg0.N) : (win0_0.xblock (grid0.coords t)).Idx → Elt F .f32 :=
  (win0_0.blk t).view.read (Elt F) (V c main_v25)
/-- The same rows of the destination-end array (the four windows' index maps and cuts agree: one block shape). -/
def udBlk (c : Dev nD) (t : Fin cfg0.N) : (win0_0.xblock (grid0.coords t)).Idx → Elt F .f32 :=
  (win0_1.blk t).view.read (Elt F) (V c main_v26)
/-- The same rows of the spacings. -/
def eaBlk (c : Dev nD) (t : Fin cfg0.N) : (win0_0.xblock (grid0.coords t)).Idx → Elt F .f32 :=
  (win0_2.blk t).view.read (Elt F) (V c main_v27)
/-- What the write-back at point `t` moves: the edge differences of those rows. -/
def outBlk (c : Dev nD) (t : Fin cfg0.N) : (win0_0.xblock (grid0.coords t)).Idx → Elt F .f32 :=
  fun j => edgeDiff1 (usBlk V c t j) (udBlk V c t j) (eaBlk V c t j)

/-- A filler for the staging rows past the array's end, which nothing reads. -/
def pad : S8192x128.Idx → Elt F .f32 := fun _ => Scalar.ofBits .f32 0#32

/-! ## The proof data -/

/-- The arrays as the region finds them; after the body each staging buffer holds, on the rows a transfer moves, its
    block (an input) or the edge differences (the result); the class's invariant; nothing owed; full shares. -/
def dat0 (c : Dev nD) : Dat τ (Elt F) Unit ℕ (UR sig nD τ) ℕ cfg0 c where
  A w := V c (Pipeline.arrRef spec0 w)
  after w t := match w with
    | ⟨0, _⟩ => win0_0.fill (grid0.coords t) pad (usBlk V c t)
    | ⟨1, _⟩ => win0_0.fill (grid0.coords t) pad (udBlk V c t)
    | ⟨2, _⟩ => win0_0.fill (grid0.coords t) pad (eaBlk V c t)
    | ⟨3, _⟩ => win0_0.fill (grid0.coords t) pad (outBlk V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = win0_0.fill (grid0.coords t) pad (usBlk V c t) := by dsimp only [dat0]
theorem after0_1 (c : Dev nD) (t : Fin cfg0.N) : (dat0 V c).after 1 t = win0_0.fill (grid0.coords t) pad (udBlk V c t) := by dsimp only [dat0]
theorem after0_2 (c : Dev nD) (t : Fin cfg0.N) : (dat0 V c).after 2 t = win0_0.fill (grid0.coords t) pad (eaBlk V c t) := by dsimp only [dat0]
theorem after0_3 (c : Dev nD) (t : Fin cfg0.N) : (dat0 V c).after 3 t = win0_0.fill (grid0.coords t) pad (outBlk V c t) := by dsimp only [dat0]

/-- The result's window fetches at no point. -/
theorem fetch0_3 : ∀ t : Fin cfg0.N, (cfg0.win 3).fetch t = false :=
  (by decide +kernel : ∀ t : Fin grid0.N, win0_3.fetch t = false)

/-- An input's buffer, just fetched, holds its block on the rows inside the array and `d` past them. -/
theorem before0_0 (c : Dev nD) (t : Fin cfg0.N) (d) :
    (dat0 V c).before (0 : Fin 4) t d = win0_0.fill (grid0.coords t) d (usBlk V c t) := by
  unfold Dat.before; rw [if_pos (fetch0_0 t)]; unfold Dat.fetched Dat.blockOf usBlk; rw [A_eq0]
theorem before0_1 (c : Dev nD) (t : Fin cfg0.N) (d) :
    (dat0 V c).before (1 : Fin 4) t d = win0_0.fill (grid0.coords t) d (udBlk V c t) := by
  unfold Dat.before; rw [if_pos (fetch0_1 t)]; unfold Dat.fetched Dat.blockOf udBlk; rw [A_eq0]; rfl
theorem before0_2 (c : Dev nD) (t : Fin cfg0.N) (d) :
    (dat0 V c).before (2 : Fin 4) t d = win0_0.fill (grid0.coords t) d (eaBlk V c t) := by
  unfold Dat.before; rw [if_pos (fetch0_2 t)]; unfold Dat.fetched Dat.blockOf eaBlk; rw [A_eq0]; rfl
/-- The result's buffer holds words nothing names: it is never fetched, and every point writes it back. -/
theorem before0_3 (c : Dev nD) (t : Fin cfg0.N) (d) : (dat0 V c).before (3 : Fin 4) t d = d := by
  unfold Dat.before
  rw [if_neg (by rw [fetch0_3 t]; exact Bool.false_ne_true)]
  by_cases h0 : t.val = 0
  · rw [if_pos h0]
  · rw [if_neg h0]; exact if_pos (flush0_3 _)

/-! ## The body -/

/-- What the one store leaves in the result's staging buffer, from the three input buffers' contents. -/
def stored0 (x0 x1 x2 : Vec F S8192x128 .f32) : Vec F S8192x128 .f32 :=
  View.canon [⟨Rect.unit (s := S8192x128) ![0, 0] S8192x128.size inb_S8192x128_S8192x128_0_0,
    k0_pay1 (View.ld x1 (Rect.unit (s := S8192x128) ![0, 0] S8192x128.size inb_S8192x128_S8192x128_0_0))
      (View.ld x0 (Rect.unit (s := S8192x128) ![0, 0] S8192x128.size inb_S8192x128_S8192x128_0_0))
      (View.ld x2 (Rect.unit (s := S8192x128) ![0, 0] S8192x128.size inb_S8192x128_S8192x128_0_0))⟩]

theorem zeros2 : (![0, 0] : Fin 2 → Nat) = fun _ => 0 := funext fun a => by fin_cases a <;> rfl

/-- The store is whole and its payload is the edge difference entry by entry. -/
theorem stored0_eq (x0 x1 x2 : Vec F S8192x128 .f32) :
    stored0 x0 x1 x2 = fun j => edgeDiff1 (x0 j) (x1 j) (x2 j) := by
  unfold stored0
  rw [View.canon_unit_zero zeros2]
  simp only [View.ld_unit_zero (S := S8192x128) zeros2]
  funext j
  unfold k0_pay1
  simp only [shapeCast_self]
  rfl

set_option maxHeartbeats 1000000 in
/-- The kernel body on whole staging memrefs: the three inputs' contents are read and kept, the result's buffer ends
    holding `stored0` of them. -/
theorem sound_kernel0 (c : Dev nD) (E : Set ℕ) (i : grid0.Coords)
    (arg1 : Memref sig .tc .vmem S8192x128 .f32) (harg1 : arg1.IsWhole) (arg2 : Memref sig .tc .vmem S8192x128 .f32) (harg2 : arg2.IsWhole)
    (arg3 : Memref sig .tc .vmem S8192x128 .f32) (harg3 : arg3.IsWhole) (arg4 : Memref sig .tc .vmem S8192x128 .f32) (harg4 : arg4.IsWhole)
    (x0 x1 x2 : Vec F S8192x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (stored0 x0 x1 x2)) -∗ K ⟨⟩))
      ⊢ wp frame (wpE (defs₀ (F := F)) Variants.none c none) E (cc0__edge_diff_kernel i arg1 harg1 arg2 harg2 arg3 harg3 arg4 harg4) K := by
  simp only [cc0__edge_diff_kernel_eq_skeleton]; unfold cc0__edge_diff_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (fun y => ⟨_, List.mem_singleton_self _, View.mem_set_unit_zero zeros2 inb_S8192x128_S8192x128_0_0 y⟩)

/-! ## The body obligation -/

/-- On the rows a transfer moves, what the store leaves is the edge differences of the three array blocks, whatever
    the input buffers hold past the array's end. -/
theorem cut_stored0 (c : Dev nD) (t : Fin cfg0.N) (d0 d1 d2 : S8192x128.Idx → Elt F .f32) :
    win0_0.cut (grid0.coords t) (stored0 (win0_0.fill (grid0.coords t) d0 (usBlk V c t))
        (win0_0.fill (grid0.coords t) d1 (udBlk V c t)) (win0_0.fill (grid0.coords t) d2 (eaBlk V c t)))
      = outBlk V c t := by
  rw [stored0_eq]
  funext j
  show edgeDiff1 (win0_0.fill (grid0.coords t) d0 (usBlk V c t) (win0_0.xinj (grid0.coords t) j))
      (win0_0.fill (grid0.coords t) d1 (udBlk V c t) (win0_0.xinj (grid0.coords t) j))
      (win0_0.fill (grid0.coords t) d2 (eaBlk V c t) (win0_0.xinj (grid0.coords t) j)) = _
  rw [win0_0.fill_xinj, win0_0.fill_xinj, win0_0.fill_xinj]
  rfl

/-- The library's body obligation at every point: each input buffer arrives holding its block filled out past the
    array's end with words nothing names and leaves unchanged; the result's buffer leaves holding, on the rows its
    write-back moves, the edge differences — all any of the four windows' obligations asks. -/
theorem body_obligation0 (c : Dev nD) :
    BodyObligationLoose (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  rw [before0_0 V c t d0, before0_1 V c t d1, before0_2 V c t d2, before0_3 V c t d3]
  iapply (sound_kernel0 (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_0.fill (grid0.coords t) d0 (usBlk V c t)) (win0_0.fill (grid0.coords t) d1 (udBlk V c t))
    (win0_0.fill (grid0.coords t) d2 (eaBlk V c t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) ((dat0 V c).after 0 t)))
    rw [after0_0 V c t, win0_0.cut_fill]; try iexact H0
  isplitl [H1]
  · iexists d1
    change _ ⊢ owns (c : Thread nD τ) (stage0_1 (cfg0.slots t 1)) fullShare
      (win0_0.fill (grid0.coords t) d1 (win0_0.cut (grid0.coords t) ((dat0 V c).after 1 t)))
    rw [after0_1 V c t, win0_0.cut_fill]; try iexact H1
  isplitl [H2]
  · iexists d2
    change _ ⊢ owns (c : Thread nD τ) (stage0_2 (cfg0.slots t 2)) fullShare
      (win0_0.fill (grid0.coords t) d2 (win0_0.cut (grid0.coords t) ((dat0 V c).after 2 t)))
    rw [after0_2 V c t, win0_0.cut_fill]; try iexact H2
  · iexists stored0 (win0_0.fill (grid0.coords t) d0 (usBlk V c t)) (win0_0.fill (grid0.coords t) d1 (udBlk V c t))
      (win0_0.fill (grid0.coords t) d2 (eaBlk V c t))
    change _ ⊢ owns (c : Thread nD τ) (stage0_3 (cfg0.slots t 3)) fullShare
      (win0_0.fill (grid0.coords t) (stored0 (win0_0.fill (grid0.coords t) d0 (usBlk V c t)) (win0_0.fill (grid0.coords t) d1 (udBlk V c t))
        (win0_0.fill (grid0.coords t) d2 (eaBlk V c t))) (win0_0.cut (grid0.coords t) ((dat0 V c).after 3 t)))
    rw [after0_3 V c t, win0_0.cut_fill, ← cut_stored0 V c t d0 d1 d2, win0_0.fill_cut]; try iexact H3

end Cert.KernelIdeal.EdgeRegion

end
-- ==== Proof.KIFold.lean ====
/-
  The buffers' contents at the boundaries of the kernel's program up to the node pass's entry, as a fold from the launch
  memory: the first host stretch applied (`W1`); the edge pass's arrays at what its write-backs compute and every other
  buffer as entered (`W2`); the second host stretch applied (`W3`).
-/
import proofs.«108122_j16939351015518_2_alg».proof.Proof.KIEdgeRegion
import proofs.«108122_j16939351015518_2_alg».proof.Proof.Gen.KernelIdeal.Regions

set_option maxRecDepth 16384

noncomputable section

namespace Cert.KernelIdeal.Run

open Cert.KernelIdeal Cert.KernelIdeal.Gen Cert.KernelIdeal.EdgeRegion
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-! ## The buffers' contents at each boundary -/

/-- Core `c`'s buffers at launch. -/
abbrev W0 : Dev nD → Valuation τ sig (Elt F) := fun c b => m (c, b)
/-- After the first host stretch (the edge pass's entry). -/
abbrev W1 : Dev nD → Valuation τ sig (Elt F) := fun c => StableHlo.after hostOps0 (W0 m c)
/-- The same read at the TensorCore's references. -/
abbrev R1 : (c : Dev nD) → (b : Ref sig .tc) → Buf (Elt F) ((c : Thread nD τ).loc b) := fun c b => W1 m c b
/-- At the edge pass's exit: its arrays at what the pipeline leaves, every other buffer as entered. -/
def W2 (c : Dev nD) : Valuation τ sig (Elt F) :=
  Pipeline.withArrays spec0 c (W1 m c) fun w => (dat0 (R1 m) c).arrAt w cfg0.N
theorem W2_arr (c : Dev nD) (w : Fin cfg0.W) :
    W2 m c (Proc.devRef .tc (Pipeline.arrRef spec0 w)) = (dat0 (R1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev R2 : (c : Dev nD) → (b : Ref sig .tc) → Buf (Elt F) ((c : Thread nD τ).loc b) := fun c b => W2 m c b
theorem hF0 (c : Dev nD) (w : Fin cfg0.W) : (dat0 (R1 m) c).arrAt w cfg0.N = R2 m c (Pipeline.arrRef spec0 w) :=
  (W2_arr m c w).symm
theorem hrest0 (c : Dev nD) : ∀ b, b ∉ Finset.univ.image (Pipeline.arrRef spec0) → R2 m c b = R1 m c b :=
  fun b hb => W2_of_ne m c b fun w e => hb (Finset.mem_image.mpr ⟨w, Finset.mem_univ _, e⟩)

/-- After the second host stretch (the node pass's entry). -/
abbrev W3 : Dev nD → Valuation τ sig (Elt F) := fun c => StableHlo.after hostOps1 (W2 m c)
abbrev R3 : (c : Dev nD) → (b : Ref sig .tc) → Buf (Elt F) ((c : Thread nD τ).loc b) := fun c b => W3 m c b

end Cert.KernelIdeal.Run

end
-- ==== Proof.KINodeRegion.lean ====
/-
  The node pass of the kernel's program — its second pipelined region — at any float instance.

  The region runs over four grid points; at point `t` it stages rows `4000·t … 4000·t + 3999` of six 15625×128
  arrays (the current node values, the previous node values, the sums of incoming edge differences, the incoming-edge
  counts, the sums of edge-end values, the mask) and writes back the same rows of the result. The last block overhangs
  the arrays by 375 rows: its fetch fills only the rows inside the array and the rest of the staging buffer holds words
  nothing names; its write-back writes only the rows inside the array.

  The body loads the six staged blocks whole and stores the per-node loss
  `((u - u1) / dt + (if cnt > 0 then sums / max cnt 1 else 0) · u - mu · ((se - 2 u) / dx²)) · msk` entry by entry. So
  on the rows a transfer moves, the result's staging buffer holds `nodeLoss1` of the six array blocks, whatever the
  tail holds; that is the proof data `dat1` and its body obligation. The arrays are read at a parameter `V`, the
  buffers' contents when the region is entered.
-/
import proofs.«108122_j16939351015518_2_alg».proof.Proof.Gen.KernelIdeal.Launch
import proofs.«108122_j16939351015518_2_alg».proof.Proof.Gen.KernelIdeal.Skeleton
import proofs.«108122_j16939351015518_2_alg».proof.Proof.Gen.KernelIdeal.Points
import proofs.«108122_j16939351015518_2_alg».proof.Proof.PointwiseLoss
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.NodeRegion

open Cert.KernelIdeal Cert.KernelIdeal.Gen Cert.PointwiseLoss
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The rows of the array of current node values that point `t`'s block holds inside the array. -/
def uBlk (c : Dev nD) (t : Fin cfg1.N) : (win1_0.xblock (grid1.coords t)).Idx → Elt F .f32 :=
  (win1_0.blk t).view.read (Elt F) (V c main_v40)
/-- The same rows of the previous node values (the seven windows' index maps and cuts agree: one block shape). -/
def u1Blk (c : Dev nD) (t : Fin cfg1.N) : (win1_0.xblock (grid1.coords t)).Idx → Elt F .f32 :=
  (win1_1.blk t).view.read (Elt F) (V c main_v41)
/-- The same rows of the sums of incoming edge differences. -/
def sumsBlk (c : Dev nD) (t : Fin cfg1.N) : (win1_0.xblock (grid1.coords t)).Idx → Elt F .f32 :=
  (win1_2.blk t).view.read (Elt F) (V c main_v42)
/-- The same rows of the incoming-edge counts. -/
def cntBlk (c : Dev nD) (t : Fin cfg1.N) : (win1_0.xblock (grid1.coords t)).Idx → Elt F .f32 :=
  (win1_3.blk t).view.read (Elt F) (V c main_v43)
/-- The same rows of the sums of the edge-end values. -/
def seBlk (c : Dev nD) (t : Fin cfg1.N) : (win1_0.xblock (grid1.coords t)).Idx → Elt F .f32 :=
  (win1_4.blk t).view.read (Elt F) (V c main_v44)
/-- The same rows of the mask. -/
def mskBlk (c : Dev nD) (t : Fin cfg1.N) : (win1_0.xblock (grid1.coords t)).Idx → Elt F .f32 :=
  (win1_5.blk t).view.read (Elt F) (V c main_v45)
/-- What the write-back at point `t` moves: the per-node loss of those rows. -/
def outBlk (c : Dev nD) (t : Fin cfg1.N) : (win1_0.xblock (grid1.coords t)).Idx → Elt F .f32 :=
  fun j => nodeLoss1 (uBlk V c t j) (u1Blk V c t j) (sumsBlk V c t j) (cntBlk V c t j) (seBlk V c t j) (mskBlk V c t j)

/-- A filler for the staging rows past the array's end, which nothing reads. -/
def pad : S4000x128.Idx → Elt F .f32 := fun _ => Scalar.ofBits .f32 0#32

/-! ## The proof data -/

/-- The arrays as the region finds them; after the body each staging buffer holds, on the rows a transfer moves, its
    block (an input) or the per-node loss (the result); the class's invariant; nothing owed; full shares. -/
def dat1 (c : Dev nD) : Dat τ (Elt F) Unit ℕ (UR sig nD τ) ℕ cfg1 c where
  A w := V c (Pipeline.arrRef spec1 w)
  after w t := match w with
    | ⟨0, _⟩ => win1_0.fill (grid1.coords t) pad (uBlk V c t)
    | ⟨1, _⟩ => win1_0.fill (grid1.coords t) pad (u1Blk V c t)
    | ⟨2, _⟩ => win1_0.fill (grid1.coords t) pad (sumsBlk V c t)
    | ⟨3, _⟩ => win1_0.fill (grid1.coords t) pad (cntBlk V c t)
    | ⟨4, _⟩ => win1_0.fill (grid1.coords t) pad (seBlk V c t)
    | ⟨5, _⟩ => win1_0.fill (grid1.coords t) pad (mskBlk V c t)
    | ⟨6, _⟩ => win1_0.fill (grid1.coords t) pad (outBlk V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = win1_0.fill (grid1.coords t) pad (uBlk V c t) := by dsimp only [dat1]
theorem after1_1 (c : Dev nD) (t : Fin cfg1.N) : (dat1 V c).after 1 t = win1_0.fill (grid1.coords t) pad (u1Blk V c t) := by dsimp only [dat1]
theorem after1_2 (c : Dev nD) (t : Fin cfg1.N) : (dat1 V c).after 2 t = win1_0.fill (grid1.coords t) pad (sumsBlk V c t) := by dsimp only [dat1]
theorem after1_3 (c : Dev nD) (t : Fin cfg1.N) : (dat1 V c).after 3 t = win1_0.fill (grid1.coords t) pad (cntBlk V c t) := by dsimp only [dat1]
theorem after1_4 (c : Dev nD) (t : Fin cfg1.N) : (dat1 V c).after 4 t = win1_0.fill (grid1.coords t) pad (seBlk V c t) := by dsimp only [dat1]
theorem after1_5 (c : Dev nD) (t : Fin cfg1.N) : (dat1 V c).after 5 t = win1_0.fill (grid1.coords t) pad (mskBlk V c t) := by dsimp only [dat1]
theorem after1_6 (c : Dev nD) (t : Fin cfg1.N) : (dat1 V c).after 6 t = win1_0.fill (grid1.coords t) pad (outBlk V c t) := by dsimp only [dat1]

/-- The result's window fetches at no point. -/
theorem fetch1_6 : ∀ t : Fin cfg1.N, (cfg1.win 6).fetch t = false :=
  (by decide +kernel : ∀ t : Fin grid1.N, win1_6.fetch t = false)

/-- An input's buffer, just fetched, holds its block on the rows inside the array and `d` past them. -/
theorem before1_0 (c : Dev nD) (t : Fin cfg1.N) (d) :
    (dat1 V c).before (0 : Fin 7) t d = win1_0.fill (grid1.coords t) d (uBlk V c t) := by
  unfold Dat.before; rw [if_pos (fetch1_0 t)]; unfold Dat.fetched Dat.blockOf uBlk; rw [A_eq1]
theorem before1_1 (c : Dev nD) (t : Fin cfg1.N) (d) :
    (dat1 V c).before (1 : Fin 7) t d = win1_0.fill (grid1.coords t) d (u1Blk V c t) := by
  unfold Dat.before; rw [if_pos (fetch1_1 t)]; unfold Dat.fetched Dat.blockOf u1Blk; rw [A_eq1]; rfl
theorem before1_2 (c : Dev nD) (t : Fin cfg1.N) (d) :
    (dat1 V c).before (2 : Fin 7) t d = win1_0.fill (grid1.coords t) d (sumsBlk V c t) := by
  unfold Dat.before; rw [if_pos (fetch1_2 t)]; unfold Dat.fetched Dat.blockOf sumsBlk; rw [A_eq1]; rfl
theorem before1_3 (c : Dev nD) (t : Fin cfg1.N) (d) :
    (dat1 V c).before (3 : Fin 7) t d = win1_0.fill (grid1.coords t) d (cntBlk V c t) := by
  unfold Dat.before; rw [if_pos (fetch1_3 t)]; unfold Dat.fetched Dat.blockOf cntBlk; rw [A_eq1]; rfl
theorem before1_4 (c : Dev nD) (t : Fin cfg1.N) (d) :
    (dat1 V c).before (4 : Fin 7) t d = win1_0.fill (grid1.coords t) d (seBlk V c t) := by
  unfold Dat.before; rw [if_pos (fetch1_4 t)]; unfold Dat.fetched Dat.blockOf seBlk; rw [A_eq1]; rfl
theorem before1_5 (c : Dev nD) (t : Fin cfg1.N) (d) :
    (dat1 V c).before (5 : Fin 7) t d = win1_0.fill (grid1.coords t) d (mskBlk V c t) := by
  unfold Dat.before; rw [if_pos (fetch1_5 t)]; unfold Dat.fetched Dat.blockOf mskBlk; rw [A_eq1]; rfl
/-- The result's buffer holds words nothing names: it is never fetched, and every point writes it back. -/
theorem before1_6 (c : Dev nD) (t : Fin cfg1.N) (d) : (dat1 V c).before (6 : Fin 7) t d = d := by
  unfold Dat.before
  rw [if_neg (by rw [fetch1_6 t]; exact Bool.false_ne_true)]
  by_cases h0 : t.val = 0
  · rw [if_pos h0]
  · rw [if_neg h0]; exact if_pos (flush1_6 _)

/-! ## The body -/

/-- What the one store leaves in the result's staging buffer, from the six input buffers' contents. -/
def stored1 (x0 x1 x2 x3 x4 x5 : Vec F S4000x128 .f32) : Vec F S4000x128 .f32 :=
  View.canon [⟨Rect.unit (s := S4000x128) ![0, 0] S4000x128.size inb_S4000x128_S4000x128_0_0,
    k1_pay1 (View.ld x0 (Rect.unit (s := S4000x128) ![0, 0] S4000x128.size inb_S4000x128_S4000x128_0_0))
      (View.ld x1 (Rect.unit (s := S4000x128) ![0, 0] S4000x128.size inb_S4000x128_S4000x128_0_0))
      (View.ld x2 (Rect.unit (s := S4000x128) ![0, 0] S4000x128.size inb_S4000x128_S4000x128_0_0))
      (View.ld x3 (Rect.unit (s := S4000x128) ![0, 0] S4000x128.size inb_S4000x128_S4000x128_0_0))
      (View.ld x4 (Rect.unit (s := S4000x128) ![0, 0] S4000x128.size inb_S4000x128_S4000x128_0_0))
      (View.ld x5 (Rect.unit (s := S4000x128) ![0, 0] S4000x128.size inb_S4000x128_S4000x128_0_0))⟩]

theorem zeros2 : (![0, 0] : Fin 2 → Nat) = fun _ => 0 := funext fun a => by fin_cases a <;> rfl

/-- The store is whole and its payload is the per-node loss entry by entry. -/
theorem stored1_eq (x0 x1 x2 x3 x4 x5 : Vec F S4000x128 .f32) :
    stored1 x0 x1 x2 x3 x4 x5 = fun j => nodeLoss1 (x0 j) (x1 j) (x2 j) (x3 j) (x4 j) (x5 j) := by
  unfold stored1
  rw [View.canon_unit_zero zeros2]
  simp only [View.ld_unit_zero (S := S4000x128) zeros2]
  funext j
  unfold k1_pay1
  simp only [shapeCast_self]
  rfl

set_option maxHeartbeats 1000000 in
/-- The kernel body on whole staging memrefs: the six inputs' contents are read and kept, the result's buffer ends
    holding `stored1` of them. -/
theorem sound_kernel1 (c : Dev nD) (E : Set ℕ) (i : grid1.Coords)
    (arg1 : Memref sig .tc .vmem S4000x128 .f32) (harg1 : arg1.IsWhole)
    (arg2 : Memref sig .tc .vmem S4000x128 .f32) (harg2 : arg2.IsWhole)
    (arg3 : Memref sig .tc .vmem S4000x128 .f32) (harg3 : arg3.IsWhole)
    (arg4 : Memref sig .tc .vmem S4000x128 .f32) (harg4 : arg4.IsWhole)
    (arg5 : Memref sig .tc .vmem S4000x128 .f32) (harg5 : arg5.IsWhole)
    (arg6 : Memref sig .tc .vmem S4000x128 .f32) (harg6 : arg6.IsWhole)
    (arg7 : Memref sig .tc .vmem S4000x128 .f32) (harg7 : arg7.IsWhole)
    (x0 x1 x2 x3 x4 x5 : Vec F S4000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (stored1 x0 x1 x2 x3 x4 x5)) -∗ K ⟨⟩))
      ⊢ wp frame (wpE (defs₀ (F := F)) Variants.none c none) E (cc1__node_combine_kernel i arg1 harg1 arg2 harg2 arg3 harg3 arg4 harg4 arg5 harg5 arg6 harg6 arg7 harg7) K := by
  simp only [cc1__node_combine_kernel_eq_skeleton]; unfold cc1__node_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (fun y => ⟨_, List.mem_singleton_self _, View.mem_set_unit_zero zeros2 inb_S4000x128_S4000x128_0_0 y⟩)

/-! ## The body obligation -/

/-- On the rows a transfer moves, what the store leaves is the per-node loss of the six array blocks, whatever the
    input buffers hold past the array's end. -/
theorem cut_stored1 (c : Dev nD) (t : Fin cfg1.N) (d0 d1 d2 d3 d4 d5 : S4000x128.Idx → Elt F .f32) :
    win1_0.cut (grid1.coords t) (stored1 (win1_0.fill (grid1.coords t) d0 (uBlk V c t))
        (win1_0.fill (grid1.coords t) d1 (u1Blk V c t))
        (win1_0.fill (grid1.coords t) d2 (sumsBlk V c t))
        (win1_0.fill (grid1.coords t) d3 (cntBlk V c t))
        (win1_0.fill (grid1.coords t) d4 (seBlk V c t))
        (win1_0.fill (grid1.coords t) d5 (mskBlk V c t)))
      = outBlk V c t := by
  rw [stored1_eq]
  funext j
  show nodeLoss1 (win1_0.fill (grid1.coords t) d0 (uBlk V c t) (win1_0.xinj (grid1.coords t) j))
      (win1_0.fill (grid1.coords t) d1 (u1Blk V c t) (win1_0.xinj (grid1.coords t) j))
      (win1_0.fill (grid1.coords t) d2 (sumsBlk V c t) (win1_0.xinj (grid1.coords t) j))
      (win1_0.fill (grid1.coords t) d3 (cntBlk V c t) (win1_0.xinj (grid1.coords t) j))
      (win1_0.fill (grid1.coords t) d4 (seBlk V c t) (win1_0.xinj (grid1.coords t) j))
      (win1_0.fill (grid1.coords t) d5 (mskBlk V c t) (win1_0.xinj (grid1.coords t) j)) = _
  rw [win1_0.fill_xinj, win1_0.fill_xinj, win1_0.fill_xinj, win1_0.fill_xinj, win1_0.fill_xinj, win1_0.fill_xinj]
  rfl

/-- The library's body obligation at every point: each input buffer arrives holding its block filled out past the
    array's end with words nothing names and leaves unchanged; the result's buffer leaves holding, on the rows its
    write-back moves, the per-node loss — all any of the seven windows' obligations asks. -/
theorem body_obligation1 (c : Dev nD) :
    BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before1_0 V c t d0, before1_1 V c t d1, before1_2 V c t d2, before1_3 V c t d3, before1_4 V c t d4, before1_5 V c t d5, before1_6 V c t d6]
  iapply (sound_kernel1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_0.fill (grid1.coords t) d0 (uBlk V c t))
    (win1_0.fill (grid1.coords t) d1 (u1Blk V c t))
    (win1_0.fill (grid1.coords t) d2 (sumsBlk V c t))
    (win1_0.fill (grid1.coords t) d3 (cntBlk V c t))
    (win1_0.fill (grid1.coords t) d4 (seBlk V c t))
    (win1_0.fill (grid1.coords t) d5 (mskBlk V c t)) _)
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  iintro ⟨H0, H1, H2, H3, H4, H5, H6⟩
  isplitl [HΦ]; · iexact HΦ
  isplitl [Ho]; · iexact Ho
  isplitl [H0]
  · iexists d0
    change _ ⊢ owns (c : Thread nD τ) (stage1_0 (cfg1.slots t 0)) fullShare
      (win1_0.fill (grid1.coords t) d0 (win1_0.cut (grid1.coords t) ((dat1 V c).after 0 t)))
    rw [after1_0 V c t, win1_0.cut_fill]; try iexact H0
  isplitl [H1]
  · iexists d1
    change _ ⊢ owns (c : Thread nD τ) (stage1_1 (cfg1.slots t 1)) fullShare
      (win1_0.fill (grid1.coords t) d1 (win1_0.cut (grid1.coords t) ((dat1 V c).after 1 t)))
    rw [after1_1 V c t, win1_0.cut_fill]; try iexact H1
  isplitl [H2]
  · iexists d2
    change _ ⊢ owns (c : Thread nD τ) (stage1_2 (cfg1.slots t 2)) fullShare
      (win1_0.fill (grid1.coords t) d2 (win1_0.cut (grid1.coords t) ((dat1 V c).after 2 t)))
    rw [after1_2 V c t, win1_0.cut_fill]; try iexact H2
  isplitl [H3]
  · iexists d3
    change _ ⊢ owns (c : Thread nD τ) (stage1_3 (cfg1.slots t 3)) fullShare
      (win1_0.fill (grid1.coords t) d3 (win1_0.cut (grid1.coords t) ((dat1 V c).after 3 t)))
    rw [after1_3 V c t, win1_0.cut_fill]; try iexact H3
  isplitl [H4]
  · iexists d4
    change _ ⊢ owns (c : Thread nD τ) (stage1_4 (cfg1.slots t 4)) fullShare
      (win1_0.fill (grid1.coords t) d4 (win1_0.cut (grid1.coords t) ((dat1 V c).after 4 t)))
    rw [after1_4 V c t, win1_0.cut_fill]; try iexact H4
  isplitl [H5]
  · iexists d5
    change _ ⊢ owns (c : Thread nD τ) (stage1_5 (cfg1.slots t 5)) fullShare
      (win1_0.fill (grid1.coords t) d5 (win1_0.cut (grid1.coords t) ((dat1 V c).after 5 t)))
    rw [after1_5 V c t, win1_0.cut_fill]; try iexact H5
  · iexists stored1 (win1_0.fill (grid1.coords t) d0 (uBlk V c t))
      (win1_0.fill (grid1.coords t) d1 (u1Blk V c t))
      (win1_0.fill (grid1.coords t) d2 (sumsBlk V c t))
      (win1_0.fill (grid1.coords t) d3 (cntBlk V c t))
      (win1_0.fill (grid1.coords t) d4 (seBlk V c t))
      (win1_0.fill (grid1.coords t) d5 (mskBlk V c t))
    change _ ⊢ owns (c : Thread nD τ) (stage1_6 (cfg1.slots t 6)) fullShare
      (win1_0.fill (grid1.coords t) (stored1 (win1_0.fill (grid1.coords t) d0 (uBlk V c t))
        (win1_0.fill (grid1.coords t) d1 (u1Blk V c t))
        (win1_0.fill (grid1.coords t) d2 (sumsBlk V c t))
        (win1_0.fill (grid1.coords t) d3 (cntBlk V c t))
        (win1_0.fill (grid1.coords t) d4 (seBlk V c t))
        (win1_0.fill (grid1.coords t) d5 (mskBlk V c t))) (win1_0.cut (grid1.coords t) ((dat1 V c).after 6 t)))
    rw [after1_6 V c t, win1_0.cut_fill, ← cut_stored1 V c t d0 d1 d2 d3 d4 d5, win1_0.fill_cut]; try iexact H6

end Cert.KernelIdeal.NodeRegion

end
-- ==== Proof.KIRun.lean ====
/-
  The run of the kernel's program, at any float instance: host operations, the edge pass, host operations, the node pass,
  a last reshape — five segments in order, each entered from what the one before left.

  The buffers' contents at each boundary are a fold from the launch memory: a stretch of host operations applies them
  (`StableHlo.after`); a pipelined region leaves its arrays at what its write-backs compute (the proof data's
  `arrAt … N`) and every other buffer as it found it. The run ends with every unscoped buffer at the last boundary's
  contents `W5`; an argument array is written by no segment, so it is read back through the fold to its launch
  contents.
-/
import proofs.«108122_j16939351015518_2_alg».proof.Proof.KIFold
import proofs.«108122_j16939351015518_2_alg».proof.Proof.KINodeRegion
import proofs.«108122_j16939351015518_2_alg».proof.Proof.Gen.KernelIdeal.Regions

set_option maxRecDepth 16384

noncomputable section

namespace Cert.KernelIdeal.Run

open Cert.KernelIdeal Cert.KernelIdeal.Gen Cert.KernelIdeal.EdgeRegion Cert.KernelIdeal.NodeRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the last boundaries -/

/-- At the node pass's exit. -/
def W4 (c : Dev nD) : Valuation τ sig (Elt F) :=
  Pipeline.withArrays spec1 c (W3 m c) fun w => (dat1 (R3 m) c).arrAt w cfg1.N
theorem W4_arr (c : Dev nD) (w : Fin cfg1.W) :
    W4 m c (Proc.devRef .tc (Pipeline.arrRef spec1 w)) = (dat1 (R3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev R4 : (c : Dev nD) → (b : Ref sig .tc) → Buf (Elt F) ((c : Thread nD τ).loc b) := fun c b => W4 m c b
theorem hF1 (c : Dev nD) (w : Fin cfg1.W) : (dat1 (R3 m) c).arrAt w cfg1.N = R4 m c (Pipeline.arrRef spec1 w) :=
  (W4_arr m c w).symm
theorem hrest1 (c : Dev nD) : ∀ b, b ∉ Finset.univ.image (Pipeline.arrRef spec1) → R4 m c b = R3 m c b :=
  fun b hb => W4_of_ne m c b fun w e => hb (Finset.mem_image.mpr ⟨w, Finset.mem_univ _, e⟩)
/-- After the last host stretch: the end. -/
abbrev W5 : Dev nD → Valuation τ sig (Elt F) := fun c => StableHlo.after hostOps2 (W4 m c)

/-! ## An argument array ends as launched -/

/-- A buffer no segment writes is read back through the fold to its launch contents: no host operation writes it
    (it is none of the stretches' results) and it is no array of either region's result window — as an input window's
    array it is left as entered. -/
theorem W5_kept (c : Dev nD) (r : Ref sig .tc) (h0 : r ∉ hostOps0_W) (h1 : r ∉ hostOps1_W) (h2 : r ∉ hostOps2_W)
    (hr0 : ∀ w, Pipeline.arrRef spec0 w ≠ r) (hr1 : ∀ w, Pipeline.arrRef spec1 w ≠ r) :
    W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_of_ne m c r hr1
    _ = W2 m c (Proc.devRef .tc r) := StableHlo.after_of_writes_sub hostOps1 _ hostOps1_writes h1
    _ = W1 m c (Proc.devRef .tc r) := W2_of_ne m c r hr0
    _ = W0 m c (Proc.devRef .tc r) := StableHlo.after_of_writes_sub hostOps0 _ hostOps0_writes h0
    _ = m ((c : Thread nD τ).loc r) := rfl

theorem W5_main_arg0 (c : Dev nD) : W5 m c (Proc.devRef .tc main_arg0) = m ((c : Thread nD τ).loc main_arg0) :=
  W5_kept m c main_arg0 (by decide) (by decide) (by decide) (by decide) (by decide)
theorem W5_main_arg1 (c : Dev nD) : W5 m c (Proc.devRef .tc main_arg1) = m ((c : Thread nD τ).loc main_arg1) :=
  W5_kept m c main_arg1 (by decide) (by decide) (by decide) (by decide) (by decide)
theorem W5_main_arg2 (c : Dev nD) : W5 m c (Proc.devRef .tc main_arg2) = m ((c : Thread nD τ).loc main_arg2) :=
  W5_kept m c main_arg2 (by decide) (by decide) (by decide) (by decide) (by decide)
theorem W5_main_arg3 (c : Dev nD) : W5 m c (Proc.devRef .tc main_arg3) = m ((c : Thread nD τ).loc main_arg3) :=
  W5_kept m c main_arg3 (by decide) (by decide) (by decide) (by decide) (by decide)
theorem W5_main_arg4 (c : Dev nD) : W5 m c (Proc.devRef .tc main_arg4) = m ((c : Thread nD τ).loc main_arg4) :=
  W5_kept m c main_arg4 (by decide) (by decide) (by decide) (by decide) (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev Ride (c : Dev nD) : sProp 𝕄 := iprop((∃ r, prngReg c r) ∗ ∃ W, owes (c : Thread nD τ) (0 : CellTallies nD τ sig Unit) W)
/-- A host stretch as a segment from the contents `W`, `Ride` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W5`, the generator register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The edge pass over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (R1 m) c
  hwaits := Pipeline.hwaits_of_owed_zero _ _ _ _ L lv 0 fun _ _ => rfl
  pre c := iprop(StableHlo.held (c : Thread nD τ) (Pipeline.ucRefs τ sig) (W1 m c) ∗ Ride c)
  post c := iprop(StableHlo.held (c : Thread nD τ) (Pipeline.ucRefs τ sig) (W2 m c) ∗ Ride c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node pass over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (R3 m) c
  hwaits := Pipeline.hwaits_of_owed_zero _ _ _ _ L lv 1 fun _ _ => rfl
  pre c := iprop(StableHlo.held (c : Thread nD τ) (Pipeline.ucRefs τ sig) (W3 m c) ∗ Ride c)
  post c := iprop(StableHlo.held (c : Thread nD τ) (Pipeline.ucRefs τ sig) (W4 m c) ∗ Ride c)
  X c := iprop(∃ r, prngReg c r)
  Y c := iprop(∃ r, prngReg c r)
  Z c := Pipeline.unscopedRest (Ix := Unit) (Name := ℕ) (U := UR sig nD τ) (Lvl := ℕ) spec1 c (R3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R3 m c) (R4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main IS the run of the segments. -/
theorem main_run (c : Dev nD) : main (F := F) c = Pipeline.Seg.run (segs m) := (main_chain c).trans (by chain_rfl)

set_option backward.isDefEq.respectTransparency.types false in
/-- At the compiled mesh, from any memory with zero counters, every weakly fair execution of @main on the TensorCores
    terminates, nothing faulting, and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (StableHlo.after hostOps2 (W4 m c)) ∗ Ride c) : sProp 𝕄)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Run

end
-- ==== Proof.KIEdgeValue.lean ====
/-
  What the edge pass leaves in its result array: the edge differences `(ud - us) / ea` of the three operand arrays, entry
  by entry, over all 31250 rows.

  Point `t`'s write-back moves rows `8192·t … 8192·t + 8191` (the last point: the 6674 rows up to the array's end) of
  what the body left, which on those rows is the edge differences of the operand blocks — the operand arrays read
  through the same rectangle. The four blocks' rows are 0‥8191, 8192‥16383, 16384‥24575 and 24576‥31249: together the
  array's, so row `r` is covered by point `r / 8192`.
-/
import proofs.«108122_j16939351015518_2_alg».proof.Proof.KIEdgeRegion

set_option maxRecDepth 16384

noncomputable section

namespace Cert.KernelIdeal.EdgeRegion

open Cert.KernelIdeal Cert.KernelIdeal.Gen Cert.PointwiseLoss
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The edge differences of the three operand arrays as the region finds them, entry by entry. -/
def edgeArr (c : Dev nD) : Buf (Elt F) ((c : Thread nD τ).loc main_v28) :=
  fun i => edgeDiff1 (V c main_v25 i) (V c main_v26 i) (V c main_v27 i)

/-- What point `t` writes back is the edge differences read through the point's block. -/
theorem flushed0 (c : Dev nD) (t : Fin cfg0.N) :
    (dat0 V c).flushed 3 t = ((cfg0.win 3).blk t).view.read (Elt F) (edgeArr V c) := by
  show win0_0.cut (grid0.coords t) ((dat0 V c).after 3 t) = _
  rw [after0_3 V c t, win0_0.cut_fill]
  rfl

/-- The result window's blocks, decided over the four points: block `t` starts at row `8192·t`, spans the lanes,
    and is cut to the 6674 rows inside the array at the last point. -/
theorem blk_facts0 : ∀ t : Fin cfg0.N, win0_3.index t 0 = t.val ∧ win0_3.index t 1 * win0_3.size 1 = 0
    ∧ win0_3.xsize (grid0.coords t) 0 = (if t.val = 3 then 6674 else 8192) ∧ win0_3.xsize (grid0.coords t) 1 = 128 :=
  (by decide +kernel : ∀ t : Fin grid0.N, win0_3.index t 0 = t.val ∧ win0_3.index t 1 * win0_3.size 1 = 0
    ∧ win0_3.xsize (grid0.coords t) 0 = (if t.val = 3 then 6674 else 8192) ∧ win0_3.xsize (grid0.coords t) 1 = 128)

/-- An index of the array is in point `t`'s block iff its row is among the block's rows inside the array. -/
theorem mem_blk0 (t : Fin cfg0.N) (i : S31250x128.Idx) :
    i ∈ ((cfg0.win 3).blk t).view.set
      ↔ t.val * 8192 ≤ (i 0 : Nat) ∧ (i 0 : Nat) < t.val * 8192 + (if t.val = 3 then 6674 else 8192) := by
  show i ∈ ((View.whole main_v28).slice (win0_3.rect t)).set ↔ _
  rw [View.set_slice_whole, Rect.mem_set_unit]
  obtain ⟨e0, e1, x0, x1⟩ := blk_facts0 t
  have h1 : (i 1 : Nat) < 128 := (i 1).isLt
  refine ⟨fun h => ?_, fun h a => ?_⟩
  · have h0 : win0_3.index t 0 * 8192 ≤ (i 0 : Nat) ∧ (i 0 : Nat) < win0_3.index t 0 * 8192 + win0_3.xsize (grid0.coords t) 0 := h 0
    rw [e0, x0] at h0; exact h0
  · match a with
    | ⟨0, _⟩ =>
      show win0_3.index t 0 * 8192 ≤ (i 0 : Nat) ∧ (i 0 : Nat) < win0_3.index t 0 * 8192 + win0_3.xsize (grid0.coords t) 0
      rw [e0, x0]; exact h
    | ⟨1, _⟩ =>
      show win0_3.index t 1 * win0_3.size 1 ≤ (i 1 : Nat) ∧ (i 1 : Nat) < win0_3.index t 1 * win0_3.size 1 + win0_3.xsize (grid0.coords t) 1
      rw [e1, x1]; omega

/-- Every row is in some point's block: row `r` in point `r / 8192`'s. -/
theorem cover0 (i : S31250x128.Idx) :
    ∃ t : Fin cfg0.N, (cfg0.win 3).flush t = true ∧ i ∈ ((cfg0.win 3).blk t).view.set := by
  have hi : (i 0 : Nat) < 31250 := (i 0).isLt
  refine ⟨⟨(i 0 : Nat) / 8192, by show (i 0 : Nat) / 8192 < 4; omega⟩, flush0_3 _, ?_⟩
  rw [mem_blk0]
  show (i 0 : Nat) / 8192 * 8192 ≤ (i 0 : Nat) ∧ (i 0 : Nat) < (i 0 : Nat) / 8192 * 8192 + (if (i 0 : Nat) / 8192 = 3 then 6674 else 8192)
  split <;> omega

/-- After the region the result array holds the edge differences of the operand arrays. -/
theorem final0 (c : Dev nD) : (dat0 V c).arrAt 3 cfg0.N = edgeArr V c :=
  (dat0 V c).arrAt_eq_of_cover 3 (edgeArr V c) (fun t _ => flushed0 V c t) cover0

end Cert.KernelIdeal.EdgeRegion

end
-- ==== Proof.KIChain.lean ====
/-
  The host operations of the kernel's program read as functions of the argument arrays.

  From the arguments the first host stretch takes column 0 of the two node arrays (`uT`, `uT1`) and of the edge array
  (`spacing`), the mask as a vector (`maskV`), the two rows of the index array (`srcIx`, `dstIx`), and gathers the node
  values at the edges' ends (`uAt`: a negative index first wrapped by the node count), and reshapes the three edge
  vectors to 31250×128 for the edge pass. The second stretch reshapes the edge pass's result back to a vector, sums it,
  the constant one, and the source-end values over the edges that share a destination (`segSum`), and reshapes the six
  node vectors to 15625×128 for the node pass.

  Each statement below is one buffer after a stretch, as the stretch's operations of the buffers before it.
-/
import proofs.«108122_j16939351015518_2_alg».proof.Proof.KIFold
import proofs.«108122_j16939351015518_2_alg».proof.Proof.KIEdgeValue
import Idealize.ShloMosaic.Lib.StableHlo.Run

set_option maxRecDepth 16384

noncomputable section

namespace Cert.KernelIdeal.Run

open Cert.KernelIdeal Cert.KernelIdeal.Gen Cert.KernelIdeal.EdgeRegion Cert.PointwiseLoss
open Idealize.ShloMosaic Idealize.ShloMosaic.TcCoe Idealize.ShloMosaic.StableHlo
open Idealize.SL Idealize.SL.Sem
open Idealize.ShloMosaic.Pipeline (Dat Cfg Window)

variable {F : FTy → Type} [FloatOps F]

variable (m : (ℓ : Loc nD τ sig) → Buf (Elt F) ℓ) (c : Dev nD)

/-! ## The vectors the host takes from the arguments -/

/-- The node values at time `t`: column 0 of the first argument. -/
def uT : (⟨S2000000, .f32⟩ : BufTy).Contents (Elt F) :=
  shapeCast S2000000 (extractStridedSlice S2000000x1 ![0, 0] (m ((c : Thread nD τ).loc main_arg0)) slices_S2000000x3_S2000000x1_0_0) shapeCasts_S2000000x1_S2000000
/-- The node values at time `t+1`: column 0 of the second argument. -/
def uT1 : (⟨S2000000, .f32⟩ : BufTy).Contents (Elt F) :=
  shapeCast S2000000 (extractStridedSlice S2000000x1 ![0, 0] (m ((c : Thread nD τ).loc main_arg1)) slices_S2000000x3_S2000000x1_0_0) shapeCasts_S2000000x1_S2000000
/-- The edges' spacings: column 0 of the third argument. -/
def spacing : (⟨S4000000, .f32⟩ : BufTy).Contents (Elt F) :=
  shapeCast S4000000 (extractStridedSlice S4000000x1 ![0, 0] (m ((c : Thread nD τ).loc main_arg2)) slices_S4000000x2_S4000000x1_0_0) shapeCasts_S4000000x1_S4000000
/-- The mask as a vector. -/
def maskV : (⟨S2000000, .f32⟩ : BufTy).Contents (Elt F) :=
  shapeCast S2000000 (m ((c : Thread nD τ).loc main_arg3)) shapeCasts_S2000000x1_S2000000
/-- The edges' source nodes: row 0 of the index argument. -/
def srcIx : (⟨S4000000, .i32⟩ : BufTy).Contents (Elt F) :=
  shapeCast S4000000 (extractStridedSlice S1x4000000 ![0, 0] (m ((c : Thread nD τ).loc main_arg4)) slices_S2x4000000_S1x4000000_0_0) shapeCasts_S1x4000000_S4000000
/-- The edges' destination nodes: row 1 of the index argument. -/
def dstIx : (⟨S4000000, .i32⟩ : BufTy).Contents (Elt F) :=
  shapeCast S4000000 (extractStridedSlice S1x4000000 ![1, 0] (m ((c : Thread nD τ).loc main_arg4)) slices_S2x4000000_S1x4000000_1_0) shapeCasts_S1x4000000_S4000000
/-- The node values gathered at an index vector, a negative index wrapped by the node count first. -/
def uAt (ix : (⟨S4000000, .i32⟩ : BufTy).Contents (Elt F)) : (⟨S4000000, .f32⟩ : BufTy).Contents (Elt F) :=
  Host.gather gather_S2000000_S4000000x1_S4000000_n_0_n_n_0_1_1 (uT m c)
    (broadcastInDim S4000000x1 ![0] bcast_S4000000_S4000000x1_0
      (select (cmpi .slt ix (broadcastInDim S4000000 ![] bcast_S_S4000000 (constantI S_ 32 0#32)))
        (addi ix (broadcastInDim S4000000 ![] bcast_S_S4000000 (constantI S_ 32 2000000#32))) ix))
/-- An edge vector summed, from zero, over the edges that share a destination node. -/
def segSum (upd : (⟨S4000000, .f32⟩ : BufTy).Contents (Elt F)) : (⟨S2000000, .f32⟩ : BufTy).Contents (Elt F) :=
  Host.scatterAdd scatter_S2000000_S4000000x1_S4000000_n_0_0_1
    (broadcastInDim S2000000 ![] bcast_S_S2000000 (constant S_ .f32 0x00000000#32))
    (broadcastInDim S4000000x1 ![0] bcast_S4000000_S4000000x1_0 (dstIx m c)) upd

/-! ## The first host stretch -/

set_option maxHeartbeats 1600000 in
theorem W1_v1 : W1 m c (Proc.devRef .tc main_v1) = uT m c := by
  show StableHlo.after hostOps0 (W0 m c) (Proc.devRef .tc main_v1) = _
  after_results; rfl
set_option maxHeartbeats 1600000 in
theorem W1_v3 : W1 m c (Proc.devRef .tc main_v3) = uT1 m c := by
  show StableHlo.after hostOps0 (W0 m c) (Proc.devRef .tc main_v3) = _
  after_results; rfl
set_option maxHeartbeats 1600000 in
theorem W1_v6 : W1 m c (Proc.devRef .tc main_v6) = maskV m c := by
  show StableHlo.after hostOps0 (W0 m c) (Proc.devRef .tc main_v6) = _
  after_results; rfl
set_option maxHeartbeats 1600000 in
theorem W1_v10 : W1 m c (Proc.devRef .tc main_v10) = dstIx m c := by
  show StableHlo.after hostOps0 (W0 m c) (Proc.devRef .tc main_v10) = _
  after_results; rfl
set_option maxHeartbeats 1600000 in
theorem W1_v17 : W1 m c (Proc.devRef .tc main_v17) = uAt m c (srcIx m c) := by
  show StableHlo.after hostOps0 (W0 m c) (Proc.devRef .tc main_v17) = _
  after_results; rfl
set_option maxHeartbeats 1600000 in
theorem R1_v25 : R1 m c main_v25 = shapeCast S31250x128 (uAt m c (srcIx m c)) shapeCasts_S4000000_S31250x128 := by
  show StableHlo.after hostOps0 (W0 m c) (Proc.devRef .tc main_v25) = _
  after_results; rfl
set_option maxHeartbeats 1600000 in
theorem R1_v26 : R1 m c main_v26 = shapeCast S31250x128 (uAt m c (dstIx m c)) shapeCasts_S4000000_S31250x128 := by
  show StableHlo.after hostOps0 (W0 m c) (Proc.devRef .tc main_v26) = _
  after_results; rfl
set_option maxHeartbeats 1600000 in
theorem R1_v27 : R1 m c main_v27 = shapeCast S31250x128 (spacing m c) shapeCasts_S4000000_S31250x128 := by
  show StableHlo.after hostOps0 (W0 m c) (Proc.devRef .tc main_v27) = _
  after_results; rfl

/-! ## The edge pass -/

/-- The edge pass's result: the edge differences of the three reshaped edge vectors. -/
theorem W2_v28 : W2 m c (Proc.devRef .tc main_v28)
    = fun i => edgeDiff1 (shapeCast S31250x128 (uAt m c (srcIx m c)) shapeCasts_S4000000_S31250x128 i)
        (shapeCast S31250x128 (uAt m c (dstIx m c)) shapeCasts_S4000000_S31250x128 i)
        (shapeCast S31250x128 (spacing m c) shapeCasts_S4000000_S31250x128 i) := by
  refine (W2_arr m c 3).trans ((final0 (R1 m) c).trans ?_)
  unfold edgeArr
  rw [R1_v25, R1_v26, R1_v27]
  rfl

/-- Every other buffer the second stretch reads is as the first stretch left it. -/
theorem W2_v1 : W2 m c (Proc.devRef .tc main_v1) = uT m c := (W2_of_ne m c main_v1 (by decide)).trans (W1_v1 m c)
theorem W2_v3 : W2 m c (Proc.devRef .tc main_v3) = uT1 m c := (W2_of_ne m c main_v3 (by decide)).trans (W1_v3 m c)
theorem W2_v6 : W2 m c (Proc.devRef .tc main_v6) = maskV m c := (W2_of_ne m c main_v6 (by decide)).trans (W1_v6 m c)
theorem W2_v10 : W2 m c (Proc.devRef .tc main_v10) = dstIx m c := (W2_of_ne m c main_v10 (by decide)).trans (W1_v10 m c)
theorem W2_v17 : W2 m c (Proc.devRef .tc main_v17) = uAt m c (srcIx m c) := (W2_of_ne m c main_v17 (by decide)).trans (W1_v17 m c)

/-! ## The second host stretch -/

set_option maxHeartbeats 1600000 in
theorem R3_v40 : R3 m c main_v40 = shapeCast S15625x128 (uT m c) shapeCasts_S2000000_S15625x128 := by
  rw [← W2_v1 m c]
  show StableHlo.after hostOps1 (W2 m c) (Proc.devRef .tc main_v40) = _
  after_results; rfl
set_option maxHeartbeats 1600000 in
theorem R3_v41 : R3 m c main_v41 = shapeCast S15625x128 (uT1 m c) shapeCasts_S2000000_S15625x128 := by
  rw [← W2_v3 m c]
  show StableHlo.after hostOps1 (W2 m c) (Proc.devRef .tc main_v41) = _
  after_results; rfl
set_option maxHeartbeats 1600000 in
theorem R3_v42 : R3 m c main_v42 = shapeCast S15625x128 (segSum m c (shapeCast S4000000 (W2 m c (Proc.devRef .tc main_v28)) shapeCasts_S31250x128_S4000000)) shapeCasts_S2000000_S15625x128 := by
  unfold segSum; rw [← W2_v10 m c]
  show StableHlo.after hostOps1 (W2 m c) (Proc.devRef .tc main_v42) = _
  after_results; rfl
set_option maxHeartbeats 1600000 in
theorem R3_v43 : R3 m c main_v43 = shapeCast S15625x128 (segSum m c (broadcastInDim S4000000 ![] bcast_S_S4000000 (constant S_ .f32 0x3F800000#32))) shapeCasts_S2000000_S15625x128 := by
  unfold segSum; rw [← W2_v10 m c]
  show StableHlo.after hostOps1 (W2 m c) (Proc.devRef .tc main_v43) = _
  after_results; rfl
set_option maxHeartbeats 1600000 in
theorem R3_v44 : R3 m c main_v44 = shapeCast S15625x128 (segSum m c (uAt m c (srcIx m c))) shapeCasts_S2000000_S15625x128 := by
  unfold segSum; rw [← W2_v10 m c, ← W2_v17 m c]
  show StableHlo.after hostOps1 (W2 m c) (Proc.devRef .tc main_v44) = _
  after_results; rfl
set_option maxHeartbeats 1600000 in
theorem R3_v45 : R3 m c main_v45 = shapeCast S15625x128 (maskV m c) shapeCasts_S2000000_S15625x128 := by
  rw [← W2_v6 m c]
  show StableHlo.after hostOps1 (W2 m c) (Proc.devRef .tc main_v45) = _
  after_results; rfl

end Cert.KernelIdeal.Run

end
-- ==== Proof.KINodeValue.lean ====
/-
  What the node pass leaves in its result array: the per-node loss
  `((u - u1) / dt + (if cnt > 0 then sums / max cnt 1 else 0) · u - mu · ((se - 2 u) / dx²)) · msk` of the six operand
  arrays, entry by entry, over all 15625 rows.

  Point `t`'s write-back moves rows `4000·t … 4000·t + 3999` (the last point: the 3625 rows up to the array's end,
  since `15625 = 3·4000 + 3625`) of what the body left, which on those rows is the per-node loss of the operand blocks —
  the operand arrays read through the same rectangle. The four blocks' rows are 0‥3999, 4000‥7999, 8000‥11999 and
  12000‥15624: together the array's, so row `r` is covered by point `r / 4000`.
-/
import proofs.«108122_j16939351015518_2_alg».proof.Proof.KINodeRegion

set_option maxRecDepth 16384

noncomputable section

namespace Cert.KernelIdeal.NodeRegion

open Cert.KernelIdeal Cert.KernelIdeal.Gen Cert.PointwiseLoss
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The per-node loss of the six operand arrays as the region finds them, entry by entry. -/
def nodeArr (c : Dev nD) : Buf (Elt F) ((c : Thread nD τ).loc main_v46) :=
  fun i => nodeLoss1 (V c main_v40 i) (V c main_v41 i) (V c main_v42 i) (V c main_v43 i) (V c main_v44 i) (V c main_v45 i)

/-- What point `t` writes back is the per-node loss read through the point's block. -/
theorem flushed1 (c : Dev nD) (t : Fin cfg1.N) :
    (dat1 V c).flushed 6 t = ((cfg1.win 6).blk t).view.read (Elt F) (nodeArr V c) := by
  show win1_0.cut (grid1.coords t) ((dat1 V c).after 6 t) = _
  rw [after1_6 V c t, win1_0.cut_fill]
  rfl

/-- The result window's blocks, decided over the four points: block `t` starts at row `4000·t`, spans the lanes,
    and is cut to the 3625 rows inside the array at the last point. -/
theorem blk_facts1 : ∀ t : Fin cfg1.N, win1_6.index t 0 = t.val ∧ win1_6.index t 1 * win1_6.size 1 = 0
    ∧ win1_6.xsize (grid1.coords t) 0 = (if t.val = 3 then 3625 else 4000) ∧ win1_6.xsize (grid1.coords t) 1 = 128 :=
  (by decide +kernel : ∀ t : Fin grid1.N, win1_6.index t 0 = t.val ∧ win1_6.index t 1 * win1_6.size 1 = 0
    ∧ win1_6.xsize (grid1.coords t) 0 = (if t.val = 3 then 3625 else 4000) ∧ win1_6.xsize (grid1.coords t) 1 = 128)

/-- An index of the array is in point `t`'s block iff its row is among the block's rows inside the array. -/
theorem mem_blk1 (t : Fin cfg1.N) (i : S15625x128.Idx) :
    i ∈ ((cfg1.win 6).blk t).view.set
      ↔ t.val * 4000 ≤ (i 0 : Nat) ∧ (i 0 : Nat) < t.val * 4000 + (if t.val = 3 then 3625 else 4000) := by
  show i ∈ ((View.whole main_v46).slice (win1_6.rect t)).set ↔ _
  rw [View.set_slice_whole, Rect.mem_set_unit]
  obtain ⟨e0, e1, x0, x1⟩ := blk_facts1 t
  have h1 : (i 1 : Nat) < 128 := (i 1).isLt
  refine ⟨fun h => ?_, fun h a => ?_⟩
  · have h0 : win1_6.index t 0 * 4000 ≤ (i 0 : Nat) ∧ (i 0 : Nat) < win1_6.index t 0 * 4000 + win1_6.xsize (grid1.coords t) 0 := h 0
    rw [e0, x0] at h0; exact h0
  · match a with
    | ⟨0, _⟩ =>
      show win1_6.index t 0 * 4000 ≤ (i 0 : Nat) ∧ (i 0 : Nat) < win1_6.index t 0 * 4000 + win1_6.xsize (grid1.coords t) 0
      rw [e0, x0]; exact h
    | ⟨1, _⟩ =>
      show win1_6.index t 1 * win1_6.size 1 ≤ (i 1 : Nat) ∧ (i 1 : Nat) < win1_6.index t 1 * win1_6.size 1 + win1_6.xsize (grid1.coords t) 1
      rw [e1, x1]; omega

/-- Every row is in some point's block: row `r` in point `r / 4000`'s. -/
theorem cover1 (i : S15625x128.Idx) :
    ∃ t : Fin cfg1.N, (cfg1.win 6).flush t = true ∧ i ∈ ((cfg1.win 6).blk t).view.set := by
  have hi : (i 0 : Nat) < 15625 := (i 0).isLt
  refine ⟨⟨(i 0 : Nat) / 4000, by show (i 0 : Nat) / 4000 < 4; omega⟩, flush1_6 _, ?_⟩
  rw [mem_blk1]
  show (i 0 : Nat) / 4000 * 4000 ≤ (i 0 : Nat) ∧ (i 0 : Nat) < (i 0 : Nat) / 4000 * 4000 + (if (i 0 : Nat) / 4000 = 3 then 3625 else 4000)
  split <;> omega

/-- After the region the result array holds the per-node loss of the operand arrays. -/
theorem final1 (c : Dev nD) : (dat1 V c).arrAt 6 cfg1.N = nodeArr V c :=
  (dat1 V c).arrAt_eq_of_cover 6 (nodeArr V c) (fun t _ => flushed1 V c t) cover1

end Cert.KernelIdeal.NodeRegion

end
-- ==== Proof.LossAlgebra.lean ====
/-
  The two entrywise formulas under a change of shape, at the extended reals.

  A change of shape `shapeCast` re-indexes an array through the row-major bijection between the two index sets, and the
  bijection from `S` to `T` followed by the one from `T` back to `S` is the identity of `S`'s index set. Every
  vector operation is its scalar operation entry by entry. Hence: re-index each operand array from `S` to `T`, apply a
  scalar function entry by entry over `T`, and re-index the result back to `S` — the outcome is the same scalar
  function applied entry by entry over `S` to the operands as they stand.

  * `edge_reshape`: for `edgeDiff1 us ud ea = (ud - us) / ea` the outcome is the array `(ud - us) / ea` spelt with
    the host program's quotient, which at the extended reals is the same division as the vector quotient.
  * `hostLoss`: the host program's spelling of the per-node loss over a shape `S`,
    `((u - u1) / dt + (if cnt > 0 then sums / max cnt 1 else 0) · u - mu · ((se - 2 u) / dx²)) · msk`, each literal a
    rank-0 constant broadcast to `S` (a broadcast of a rank-0 array reads its one entry everywhere).
  * `node_reshape`: for `nodeLoss1` the outcome is `hostLoss`.

  No finiteness is used: both sides are the same operations on the same entries in the same order.
-/
import proofs.«108122_j16939351015518_2_alg».proof.Proof.PointwiseLoss
import Idealize.ShloMosaic.PureOps.Ideal
import Idealize.ShloMosaic.PureOps.ShapeOps

noncomputable section

namespace Cert.LossAlgebra

open Idealize.ShloMosaic

/-- Re-indexing from `S` to `T` and back is the identity on `S`'s indices. -/
theorem reindex_back {S T : Shape} (h : S.ShapeCasts T) (h' : T.ShapeCasts S) (i : S.Idx) :
    Shape.reshapeEquiv h (Shape.reshapeEquiv h' i) = i := by
  rw [Shape.reshapeEquiv_reshapeEquiv, Shape.reshapeEquiv_self]

/-- `(ud - us) / ea` entry by entry over `T`, brought back to `S`, is the host quotient of `ud - us` by `ea` over `S`. -/
theorem edge_reshape {S T : Shape} (h : S.ShapeCasts T) (h' : T.ShapeCasts S) (us ud ea : FVec Ideal S .f32) :
    shapeCast S (fun i : T.Idx => Cert.PointwiseLoss.edgeDiff1 (shapeCast T us h i) (shapeCast T ud h i) (shapeCast T ea h i)) h'
      = Host.divf (F := Ideal) (subf ud us) ea := by
  funext i
  show Cert.PointwiseLoss.edgeDiff1
      (us (Shape.reshapeEquiv h (Shape.reshapeEquiv h' i)))
      (ud (Shape.reshapeEquiv h (Shape.reshapeEquiv h' i)))
      (ea (Shape.reshapeEquiv h (Shape.reshapeEquiv h' i))) = _
  rw [reindex_back h h' i]
  rfl

/-- The host program's per-node loss over a shape `S`: its operations in its order, each literal a rank-0 constant
    broadcast to `S`. -/
def hostLoss (S : Shape) (hb : (⟨0, ![]⟩ : Shape).BroadcastsInDim S ![]) (u u1 sums cnt se msk : FVec Ideal S .f32) :
    FVec Ideal S .f32 :=
  mulf (subf (addf (Host.divf (subf u u1) (broadcastInDim S ![] hb (constant (⟨0, ![]⟩ : Shape) .f32 0x3C23D70A#32))) (mulf (select (cmpf (F := Ideal) .ogt cnt (broadcastInDim S ![] hb (constant (⟨0, ![]⟩ : Shape) .f32 0x00000000#32))) (Host.divf sums (maximumf cnt (broadcastInDim S ![] hb (constant (⟨0, ![]⟩ : Shape) .f32 0x3F800000#32)))) (broadcastInDim S ![] hb (id (constant (⟨0, ![]⟩ : Shape) .f32 0x00000000#32)))) u)) (mulf (broadcastInDim S ![] hb (constant (⟨0, ![]⟩ : Shape) .f32 0x3C23D70A#32)) (Host.divf (subf se (mulf (broadcastInDim S ![] hb (constant (⟨0, ![]⟩ : Shape) .f32 0x40000000#32)) u)) (broadcastInDim S ![] hb (constant (⟨0, ![]⟩ : Shape) .f32 0x358637BD#32))))) msk

/-- The per-node loss entry by entry over `T`, brought back to `S`, is the host program's per-node loss over `S`. -/
theorem node_reshape {S T : Shape} (h : S.ShapeCasts T) (h' : T.ShapeCasts S)
    (hb : (⟨0, ![]⟩ : Shape).BroadcastsInDim S ![]) (u u1 sums cnt se msk : FVec Ideal S .f32) :
    shapeCast S (fun i : T.Idx => Cert.PointwiseLoss.nodeLoss1 (shapeCast T u h i) (shapeCast T u1 h i) (shapeCast T sums h i) (shapeCast T cnt h i) (shapeCast T se h i) (shapeCast T msk h i)) h'
      = hostLoss S hb u u1 sums cnt se msk := by
  funext i
  show Cert.PointwiseLoss.nodeLoss1
      (u (Shape.reshapeEquiv h (Shape.reshapeEquiv h' i)))
      (u1 (Shape.reshapeEquiv h (Shape.reshapeEquiv h' i)))
      (sums (Shape.reshapeEquiv h (Shape.reshapeEquiv h' i)))
      (cnt (Shape.reshapeEquiv h (Shape.reshapeEquiv h' i)))
      (se (Shape.reshapeEquiv h (Shape.reshapeEquiv h' i)))
      (msk (Shape.reshapeEquiv h (Shape.reshapeEquiv h' i))) = _
  rw [reindex_back h h' i]
  rfl

end Cert.LossAlgebra

end
-- ==== Proof.KIValue.lean ====
/-
  The kernel's result as a function of the arguments, and that it is the reference's.

  The last host line reshapes the node pass's 15625×128 result to a vector. The node pass leaves `nodeLoss1` of its six
  operand arrays entry by entry; those are the reshaped node vectors `uT`, `uT1`, the three sums over edges sharing a
  destination, and the mask; the first of the sums is over the edge pass's result, `edgeDiff1` of the reshaped edge
  vectors, reshaped back.

  A reshape is a re-indexing, so a vector reshaped to a matrix, mapped entry by entry and reshaped back is the vector
  mapped entry by entry: at the extended reals the kernel's result is the reference's formula `hostLoss` of the same
  six node vectors, the first sum taken over the host's `(u[dst] - u[src]) / spacing`. The reference's own result term
  is that formula of the same vectors of ITS arguments, operation for operation.
-/
import proofs.«108122_j16939351015518_2_alg».proof.Proof.KIRun
import proofs.«108122_j16939351015518_2_alg».proof.Proof.KIChain
import proofs.«108122_j16939351015518_2_alg».proof.Proof.KINodeValue
import proofs.«108122_j16939351015518_2_alg».proof.Proof.LossAlgebra
import proofs.«108122_j16939351015518_2_alg».proof.Proof.RefRun

set_option maxRecDepth 16384

noncomputable section

namespace Cert.KernelIdeal.Run

open Cert.KernelIdeal Cert.KernelIdeal.Gen Cert.KernelIdeal.EdgeRegion Cert.KernelIdeal.NodeRegion Cert.PointwiseLoss Cert.LossAlgebra
open Idealize.ShloMosaic Idealize.ShloMosaic.TcCoe Idealize.ShloMosaic.StableHlo
open Idealize.SL Idealize.SL.Sem
open Idealize.ShloMosaic.Pipeline (Dat Cfg Window)

section AnyInstance

variable {F : FTy → Type} [FloatOps F]

variable (m : (ℓ : Loc nD τ sig) → Buf (Elt F) ℓ) (c : Dev nD)

/-- The last host line: the node pass's result as a vector. -/
theorem W5_v47 : W5 m c (Proc.devRef .tc main_v47)
    = shapeCast S2000000 (W4 m c (Proc.devRef .tc main_v46)) shapeCasts_S15625x128_S2000000 := by
  show StableHlo.after hostOps2 (W4 m c) (Proc.devRef .tc main_v47) = _
  after_results; rfl

/-- The node pass's result: the node loss of the six reshaped node vectors, entry by entry. -/
theorem W4_v46 : W4 m c (Proc.devRef .tc main_v46)
    = fun i => nodeLoss1 (shapeCast S15625x128 (uT m c) shapeCasts_S2000000_S15625x128 i)
        (shapeCast S15625x128 (uT1 m c) shapeCasts_S2000000_S15625x128 i)
        (shapeCast S15625x128 (segSum m c (shapeCast S4000000
          (fun i => edgeDiff1 (shapeCast S31250x128 (uAt m c (srcIx m c)) shapeCasts_S4000000_S31250x128 i)
            (shapeCast S31250x128 (uAt m c (dstIx m c)) shapeCasts_S4000000_S31250x128 i)
            (shapeCast S31250x128 (spacing m c) shapeCasts_S4000000_S31250x128 i))
          shapeCasts_S31250x128_S4000000)) shapeCasts_S2000000_S15625x128 i)
        (shapeCast S15625x128 (segSum m c (broadcastInDim S4000000 ![] bcast_S_S4000000 (constant S_ .f32 0x3F800000#32))) shapeCasts_S2000000_S15625x128 i)
        (shapeCast S15625x128 (segSum m c (uAt m c (srcIx m c))) shapeCasts_S2000000_S15625x128 i)
        (shapeCast S15625x128 (maskV m c) shapeCasts_S2000000_S15625x128 i) := by
  refine (W4_arr m c 6).trans ((final1 (R3 m) c).trans ?_)
  unfold nodeArr
  rw [R3_v40, R3_v41, R3_v42, R3_v43, R3_v44, R3_v45, W2_v28]
  rfl

end AnyInstance

/-! ## At the extended reals -/

variable (m : (ℓ : Loc nD τ sig) → Buf (Elt Ideal) ℓ) (c : Dev nD)

/-- The kernel's result is the host formula of the node vectors, the first sum over the host's edge differences. -/
theorem result_host : W5 m c (Proc.devRef .tc main_v47)
    = hostLoss S2000000 bcast_S_S2000000 (uT m c) (uT1 m c)
        (segSum m c (Host.divf (F := Ideal) (s := S4000000) (φ := .f32) (subf (F := Ideal) (s := S4000000) (φ := .f32) (uAt m c (dstIx m c)) (uAt m c (srcIx m c))) (spacing m c)))
        (segSum m c (broadcastInDim S4000000 ![] bcast_S_S4000000 (constant (F := Ideal) S_ .f32 0x3F800000#32)))
        (segSum m c (uAt m c (srcIx m c))) (maskV m c) := by
  rw [W5_v47, W4_v46, edge_reshape shapeCasts_S4000000_S31250x128 shapeCasts_S31250x128_S4000000]
  exact node_reshape shapeCasts_S2000000_S15625x128 shapeCasts_S15625x128_S2000000 bcast_S_S2000000 _ _ _ _ _ _

/-- The two programs' gather and scatter-add dimension records are the same records. -/
theorem gather_dims_eq : Cert.ReferenceIdeal.gather_S2000000_S4000000x1_S4000000_n_0_n_n_0_1_1 = gather_S2000000_S4000000x1_S4000000_n_0_n_n_0_1_1 := rfl
theorem scatter_dims_eq : Cert.ReferenceIdeal.scatter_S2000000_S4000000x1_S4000000_n_0_0_1 = scatter_S2000000_S4000000x1_S4000000_n_0_0_1 := rfl

/-- From memories that agree on the arguments, the kernel's result is the reference's result term. -/
theorem result_ref (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4)) :
    Cert.ReferenceIdeal.RunValue.res_main_v63 (F := Ideal) m' c = W5 m c (Proc.devRef .tc main_v47) := by
  rw [result_host]
  unfold Cert.ReferenceIdeal.RunValue.res_main_v63
  rw [h0, h1, h2, h3, h4, gather_dims_eq, scatter_dims_eq]
  unfold hostLoss segSum uAt uT uT1 spacing maskV srcIx dstIx
  rfl

end Cert.KernelIdeal.Run

end
-- ==== Proof.lean ====
/-
  The certificate of the kernel's program against its reference: a per-node loss on a graph.

  Both programs take column 0 of two node arrays (`u` at two times), of an edge array (the spacings), a mask and an
  index array of edge ends, gather `u` at the edges' ends, form the edge differences `(u[dst] - u[src]) / spacing`, sum
  them, the constant one and `u[src]` over the edges that share a destination, and combine, node by node,
  `((u - u1)/dt + (sums / max cnt 1 where cnt > 0, else 0) · u - mu · (se - 2u)/dx²) · mask`.

  The kernel's program computes the edge differences and the node combination in two pipelined regions over 128-lane
  reshapes of the vectors, in four row blocks each, the last block of each overhanging its arrays; the reference computes
  everything on the host. A reshape is a re-indexing and every operation is entry by entry, so at the extended reals
  the two results are the same function of the arguments — no algebraic law, and no finiteness, is needed.

  * The frames of the kernel's program (as printed and idealized): the run of its five segments (Proof/KRun, Proof/KIRun),
    every argument array read back through the boundaries' contents to its launch contents.
  * The reference's frame: its run with the result dropped.
  * `preserves`: the idealization rewrote nothing.
  * `algebraic`: the kernel's result after the run is the last boundary's contents at the result buffer, which is the
    reference's result term of agreeing arguments (Proof/KIValue `result_ref`).
-/
import proofs.«108122_j16939351015518_2_alg».proof.Defs
import proofs.«108122_j16939351015518_2_alg».proof.Proof.Gen.Kernel
import proofs.«108122_j16939351015518_2_alg».proof.Proof.Gen.KernelIdeal
import proofs.«108122_j16939351015518_2_alg».proof.Proof.Gen.ReferenceIdeal
import proofs.«108122_j16939351015518_2_alg».proof.Proof.Gen.Pre_finite_inputs
import proofs.«108122_j16939351015518_2_alg».proof.Proof.KRun
import proofs.«108122_j16939351015518_2_alg».proof.Proof.KIRun
import proofs.«108122_j16939351015518_2_alg».proof.Proof.KIValue
import proofs.«108122_j16939351015518_2_alg».proof.Proof.RefRun
import Idealize.ShloMosaic.Adequacy
import Idealize.ShloMosaic.Init

noncomputable section

namespace Cert.Proof

open Idealize.ShloMosaic Idealize.ShloMosaic.TcCoe Idealize.SL.Sem

/-- The kernel's program as printed runs and leaves its arguments unchanged. -/
theorem frame_k : Cert.frame_Kernel := fun m ρ _ => Cert.Kernel.Run.frame (F := Bits) m ρ

/-- So does its idealization. -/
theorem frame_ki : Cert.frame_KernelIdeal := fun m ρ _ => Cert.KernelIdeal.Run.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RunValue.run (F := Ideal) m ρ)

/-- The idealization rewrote no operation. -/
theorem preserves : Cert.preserves_Kernel_KernelIdeal := trivial

/-- From memories agreeing on the arguments both idealized programs run and end with the same result: the kernel's
    result buffer ends at the last boundary's contents, which is the reference's result term. -/
theorem algebraic : Cert.algebraic_KernelIdeal_ReferenceIdeal := by
  intro m ρ m' ρ' _ hagree
  refine ⟨fun c => Cert.KernelIdeal.Run.W5 m c (Proc.devRef .tc Cert.KernelIdeal.main_v47), ?_, ?_⟩
  · exact (θ_run Cert.KernelIdeal.defs _ _).mono (fun r h c =>
      ⟨h c _ (Cert.KernelIdeal.Run.mem_uc Cert.KernelIdeal.main_v47 (by decide)),
       (h c _ (Cert.KernelIdeal.Run.mem_uc Cert.KernelIdeal.main_arg0 (by decide))).trans (Cert.KernelIdeal.Run.W5_main_arg0 m c),
       (h c _ (Cert.KernelIdeal.Run.mem_uc Cert.KernelIdeal.main_arg1 (by decide))).trans (Cert.KernelIdeal.Run.W5_main_arg1 m c),
       (h c _ (Cert.KernelIdeal.Run.mem_uc Cert.KernelIdeal.main_arg2 (by decide))).trans (Cert.KernelIdeal.Run.W5_main_arg2 m c),
       (h c _ (Cert.KernelIdeal.Run.mem_uc Cert.KernelIdeal.main_arg3 (by decide))).trans (Cert.KernelIdeal.Run.W5_main_arg3 m c),
       (h c _ (Cert.KernelIdeal.Run.mem_uc Cert.KernelIdeal.main_arg4 (by decide))).trans (Cert.KernelIdeal.Run.W5_main_arg4 m c)⟩)
      (Cert.KernelIdeal.Run.run_all (F := Ideal) m ρ)
  · exact (θ_run Cert.ReferenceIdeal.defs _ _).mono (fun _ h c =>
      ⟨(h c).1.trans (Cert.KernelIdeal.Run.result_ref m c m' (hagree c).1 (hagree c).2.1 (hagree c).2.2.1 (hagree c).2.2.2.1 (hagree c).2.2.2.2),
       (h c).2⟩)
      (Cert.ReferenceIdeal.RunValue.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
